-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x3x4096 : Shape := ⟨3, ![16, 3, 4096]⟩
abbrev S16x4096 : Shape := ⟨2, ![16, 4096]⟩
abbrev S16x16x4096 : Shape := ⟨3, ![16, 16, 4096]⟩
abbrev S16x3x256 : Shape := ⟨3, ![16, 3, 256]⟩
abbrev S16x3x512 : Shape := ⟨3, ![16, 3, 512]⟩
abbrev S16x256 : Shape := ⟨2, ![16, 256]⟩
abbrev S1x16x512 : Shape := ⟨3, ![1, 16, 512]⟩
abbrev S16x256x512 : Shape := ⟨3, ![16, 256, 512]⟩
abbrev S16x1x256 : Shape := ⟨3, ![16, 1, 256]⟩
abbrev S16x1x512 : Shape := ⟨3, ![16, 1, 512]⟩
abbrev S16x512 : Shape := ⟨2, ![16, 512]⟩
abbrev S16x256x1 : Shape := ⟨3, ![16, 256, 1]⟩
abbrev S_ : Shape := ⟨0, ![]⟩
abbrev S16 : Shape := ⟨1, ![16]⟩

abbrev nBuf : Space → Nat
  | .hbm => 31
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x3x4096, .f32⟩
  | .hbm, ⟨3, _⟩ => ⟨S16x3x4096, .f32⟩
  | .hbm, ⟨4, _⟩ => ⟨S16x4096, .f32⟩
  | .hbm, ⟨5, _⟩ => ⟨S16x16x4096, .f32⟩
  | .hbm, ⟨6, _⟩ => ⟨S_, .f32⟩
  | .hbm, ⟨7, _⟩ => ⟨S16x4096, .f32⟩
  | .hbm, ⟨8, _⟩ => ⟨S_, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S16x3x256, .f32⟩
  | .local _ .vmem, ⟨1, _⟩ => ⟨S16x3x256, .f32⟩
  | .local _ .vmem, ⟨2, _⟩ => ⟨S16x3x512, .f32⟩
  | .local _ .vmem, ⟨3, _⟩ => ⟨S16x3x512, .f32⟩
  | .local _ .vmem, ⟨4, _⟩ => ⟨S16x256, .f32⟩
  | .local _ .vmem, ⟨5, _⟩ => ⟨S16x256, .f32⟩
  | .local _ .vmem, ⟨6, _⟩ => ⟨S1x16x512, .f32⟩
  | .local _ .vmem, ⟨7, _⟩ => ⟨S1x16x512, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_cst_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_cst_7 : Ref sig .tc := ⟨.hbm, 27, rfl⟩
abbrev main_v16 : Ref sig .tc := ⟨.hbm, 28, rfl⟩
abbrev main_cst_8 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v40 : BitVec 1 := Scalar.cmpi .eq arg1 c0_i32
  let v41 : BitVec 32 := Scalar.extui v40
  let c0_i32_7 : BitVec 32 := 0#32
  let v42 : BitVec 1 := Scalar.cmpi .ne v41 c0_i32_7
  v42

def k0_cond2 (i : grid0.Coords) : BitVec 1 :=
  let arg1 : BitVec 32 := BitVec.ofNat 32 (i 1).val
  let c0_i32_8 : BitVec 32 := 0#32
  let v43 : BitVec 1 := Scalar.cmpi .sgt arg1 c0_i32_8
  let v44 : BitVec 32 := Scalar.extui v43
  let c0_i32_9 : BitVec 32 := 0#32
  let v45 : BitVec 1 := Scalar.cmpi .ne v44 c0_i32_9
  v45

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S16x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S16x4096x3_S16x3x4096_0_2_1 : S16x4096x3.Transposes [0, 2, 1] S16x3x4096
  inb_S16x3x256_S16x3x256_0_0_0 : ∀ a, (![0, 0, 0] : Fin 3 → Nat) a + S16x3x256.size a ≤ S16x3x256.size a
  h_S16x3x256 : 0 < S16x3x256.numel
  shapeCasts_S16x3x256_S16x3x256 : S16x3x256.ShapeCasts S16x3x256
  inb_S16x3x512_S16x3x512_0_0_0 : ∀ a, (![0, 0, 0] : Fin 3 → Nat) a + S16x3x512.size a ≤ S16x3x512.size a
  h_S16x3x512 : 0 < S16x3x512.numel
  shapeCasts_S16x3x512_S16x3x512 : S16x3x512.ShapeCasts S16x3x512
  slices_S16x3x256_o0_0_0_S16x1x256 : S16x3x256.Slices ![0, 0, 0] S16x1x256
  shapeCasts_S16x1x256_S16x256 : S16x1x256.ShapeCasts S16x256
  slices_S16x3x512_o0_0_0_S16x1x512 : S16x3x512.Slices ![0, 0, 0] S16x1x512
  shapeCasts_S16x1x512_S16x512 : S16x1x512.ShapeCasts S16x512
  shapeCasts_S16x256_S16x256x1 : S16x256.ShapeCasts S16x256x1
  shapeCasts_S16x512_S16x1x512 : S16x512.ShapeCasts S16x1x512
  broadcasts_S16x256x1_S16x256x512 : S16x256x1.Broadcasts S16x256x512
  broadcasts_S16x1x512_S16x256x512 : S16x1x512.Broadcasts S16x256x512
  slices_S16x3x256_o0_1_0_S16x1x256 : S16x3x256.Slices ![0, 1, 0] S16x1x256
  slices_S16x3x512_o0_1_0_S16x1x512 : S16x3x512.Slices ![0, 1, 0] S16x1x512
  slices_S16x3x256_o0_2_0_S16x1x256 : S16x3x256.Slices ![0, 2, 0] S16x1x256
  slices_S16x3x512_o0_2_0_S16x1x512 : S16x3x512.Slices ![0, 2, 0] S16x1x512
  reduces_S16x256x512_S16x256 : S16x256x512.Reduces [2] S16x256
  reduces_S16x256x512_S16x512 : S16x256x512.Reduces [1] S16x512
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x512_S1x16x512 : S16x512.ShapeCasts S1x16x512
  inb_S1x16x512_S1x16x512_0_0_0 : ∀ a, (![0, 0, 0] : Fin 3 → Nat) a + S1x16x512.size a ≤ S1x16x512.size a
  h_S1x16x512 : 0 < S1x16x512.numel
  reducesTo_S16x16x4096_S16x4096_d0 : S16x16x4096.ReducesTo [0] S16x4096
  h_S_ : 0 < S_.numel
  reducesTo_S16x4096_S16_d1 : S16x4096.ReducesTo [1] S16
  bcast_S_S16 : S_.BroadcastsInDim S16 (![] : Fin 0 → Fin S16.rank)
  reducesTo_S16_S_d0 : S16.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x256.size a ≤ S16x3x4096.size a
  hwx0_0 : ∀ i : grid0.Coords, EltTy.bits .f32 = 32 ∨ (Rect.block (s := S16x3x4096) S16x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x512.size a ≤ S16x3x4096.size a
  hwx0_1 : ∀ i : grid0.Coords, EltTy.bits .f32 = 32 ∨ (Rect.block (s := S16x3x4096) S16x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x4096.size a
  hwx0_2 : ∀ i : grid0.Coords, EltTy.bits .f32 = 32 ∨ (Rect.block (s := S16x4096) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512.size a ≤ S16x16x4096.size a
  hwx0_3 : ∀ i : grid0.Coords, EltTy.bits .f32 = 32 ∨ (Rect.block (s := S16x16x4096) S1x16x512.size (cc0_transform_3 i) (hinb0_3 i)).WholeWords (EltTy.packing .f32)

variable [Facts₀]

abbrev win0_0 : Pipeline.Window sig grid0 :=
  Pipeline.Window.ofSpec (Memref.whole main_v0) S16x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S16x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x16x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16x4096, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_cst_12 : Ref sig .tc := ⟨.hbm, 43, rfl⟩
abbrev main_v28 : Ref sig .tc := ⟨.hbm, 44, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16x4096x4096_S16x4096_d2 : S16x4096x4096.ReducesTo [2] S16x4096
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.K.Conds.lean ====
/-
  The grid of the fused distance kernel is 16 row tiles by 8 column tiles, visited row tile by row tile. The body
  branches twice on the column-tile coordinate: "this is the first column tile" (store the tile's row minima) and
  "this is a later column tile" (fold the tile's row minima into the stored ones). Here both conditions are decided
  over the 128 grid points in terms of the point's position: the first holds exactly at the positions divisible
  by 8, the second exactly at the others. So the row-minimum buffer is written at every point.
-/
import proofs.«109425_j1408749273445_2_alg».proof.Proof.Gen.Kernel.Frame
import proofs.«109425_j1408749273445_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-column-tile condition holds exactly at the positions divisible by 8. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The later-column-tile condition holds exactly at the other positions. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two conditions holds at every grid coordinate, so the body stores into the row-minimum buffer at
    every point: the conditions read only the column-tile coordinate, which has eight values. -/
theorem live_rowmin : ∀ i : grid0.Coords, cfg0.idle 2 i = false := by
  intro i
  show (!(k0_cond1 i == 1#1) && !(k0_cond2 i == 1#1)) = false
  unfold k0_cond1 k0_cond2
  dsimp only
  generalize i 1 = k
  revert k
  decide

/-- Each window's current staging buffer at a point, as the pipeline passes it to the body, and that it is a whole
    buffer. -/
abbrev ms0 (t : Fin cfg0.N) : Memref sig .tc .vmem S16x3x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x512 .f32 := win0_3.stage (cfg0.slots t 3)
abbrev hs3 (t : Fin cfg0.N) : (ms3 t).IsWhole := hstage0_3 ((cfg0.slots t 3).cast nbuf0_3)

end Cert.Kernel.Body

end
-- ==== Proof.K.RunA.lean ====
/-
  The body of the fused distance kernel at a FIRST column tile, run on whole staging buffers. From the two input
  blocks it forms the tile of squared distances, takes its minimum along each row and along each column, stores the row
  minima over whatever the row-minimum buffer held, and stores the column minima over whatever the
  column-minimum buffer held. The input blocks are left as they were.
-/
import proofs.«109425_j1408749273445_2_alg».proof.Proof.Gen.Kernel.Frame
import proofs.«109425_j1408749273445_2_alg».proof.Proof.K.Conds
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging buffers — the inputs' at their blocks `x0`, `x1`, the row-minimum buffer at anything, the
    column-minimum buffer at anything — the body at a first column tile runs to the continuation, leaving the input
    blocks in place, the row-minimum buffer at the tile's row minima, and the column-minimum
    buffer at the tile's column minima (re-laid with a leading unit axis). -/
theorem kernelRunA (c : Dev nD) (i : grid0.Coords)
    (arg2 : Memref sig .tc .vmem S16x3x256 .f32) (harg2 : arg2.IsWhole) (arg3 : Memref sig .tc .vmem S16x3x512 .f32) (harg3 : arg3.IsWhole)
    (arg4 : Memref sig .tc .vmem S16x256 .f32) (harg4 : arg4.IsWhole) (arg5 : Memref sig .tc .vmem S1x16x512 .f32) (harg5 : arg5.IsWhole)
    (hc1 : k0_cond1 i = 1#1) (hc2 : ¬k0_cond2 i = 1#1)
    (x0 : Vec F S16x3x256 .f32) (x1 : Vec F S16x3x512 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay4 x0 x1)
            ∗ owns (c : Thread nD τ) arg5 fullShare (k0_pay2 (k0_pay5 x0 x1))) -∗ K ⟨⟩))
      ⊢ wp frame (wpE (defs₀ (F := F)) Variants.none c none) E (cc0__fused_kernel i arg2 harg2 arg3 harg3 arg4 harg4 arg5 harg5) K := by
  have hz2 : (![0, 0] : Fin 2 → Nat) = fun _ => 0 := by funext a; fin_cases a <;> rfl
  have hz3 : (![0, 0, 0] : Fin 3 → Nat) = fun _ => 0 := by funext a; fin_cases a <;> rfl
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (View.cover_of_tiledL _ S16x256.size (by sl_kernel_rfl)), View.canon_unit_zero hz2]
    simp only [View.readAt_eq_ld, harg2.read_unread, harg3.read_unread, View.ld_unit_zero (S := S16x3x256) hz3,
      View.ld_unit_zero (S := S16x3x512) hz3]
  iexists _; isplitr; swap; · iexact H3
  ipureintro
  dsimp only
  rw [View.read_writes_eq_canon _ _ _ (View.cover_of_tiledL _ S1x16x512.size (by sl_kernel_rfl)), View.canon_unit_zero hz3]
  simp only [View.readAt_eq_ld, harg2.read_unread, harg3.read_unread, View.ld_unit_zero (S := S16x3x256) hz3,
    View.ld_unit_zero (S := S16x3x512) hz3]

end Cert.Kernel.Body

end
-- ==== Proof.K.RunB.lean ====
/-
  The body of the fused distance kernel at a LATER column tile, run on whole staging buffers. From the two input
  blocks it forms the tile of squared distances, takes its minimum along each row and along each column, folds the row
  minima into what the row-minimum buffer holds (entrywise minimum), and stores the column minima over whatever the
  column-minimum buffer held. The input blocks are left as they were.
-/
import proofs.«109425_j1408749273445_2_alg».proof.Proof.Gen.Kernel.Frame
import proofs.«109425_j1408749273445_2_alg».proof.Proof.K.Conds
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging buffers — the inputs' at their blocks `x0`, `x1`, the row-minimum buffer at its running contents `xo`, the
    column-minimum buffer at anything — the body at a later column tile runs to the continuation, leaving the input
    blocks in place, the row-minimum buffer at the entrywise minimum of `xo` and the tile's row minima, and the column-minimum
    buffer at the tile's column minima (re-laid with a leading unit axis). -/
theorem kernelRunB (c : Dev nD) (i : grid0.Coords)
    (arg2 : Memref sig .tc .vmem S16x3x256 .f32) (harg2 : arg2.IsWhole) (arg3 : Memref sig .tc .vmem S16x3x512 .f32) (harg3 : arg3.IsWhole)
    (arg4 : Memref sig .tc .vmem S16x256 .f32) (harg4 : arg4.IsWhole) (arg5 : Memref sig .tc .vmem S1x16x512 .f32) (harg5 : arg5.IsWhole)
    (hc1 : ¬k0_cond1 i = 1#1) (hc2 : k0_cond2 i = 1#1)
    (x0 : Vec F S16x3x256 .f32) (x1 : Vec F S16x3x512 .f32) (xo : Vec F S16x256 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay1 (k0_pay4 x0 x1) xo)
            ∗ owns (c : Thread nD τ) arg5 fullShare (k0_pay2 (k0_pay5 x0 x1))) -∗ K ⟨⟩))
      ⊢ wp frame (wpE (defs₀ (F := F)) Variants.none c none) E (cc0__fused_kernel i arg2 harg2 arg3 harg3 arg4 harg4 arg5 harg5) K := by
  have hz2 : (![0, 0] : Fin 2 → Nat) = fun _ => 0 := by funext a; fin_cases a <;> rfl
  have hz3 : (![0, 0, 0] : Fin 3 → Nat) = fun _ => 0 := by funext a; fin_cases a <;> rfl
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (View.cover_of_tiledL _ S16x256.size (by sl_kernel_rfl)), View.canon_unit_zero hz2]
    simp only [View.readAt_eq_ld, harg2.read_unread, harg3.read_unread, harg4.read_unread, View.ld_unit_zero (S := S16x3x256) hz3,
      View.ld_unit_zero (S := S16x3x512) hz3, View.ld_unit_zero (S := S16x256) hz2]
  iexists _; isplitr; swap; · iexact H3
  ipureintro
  dsimp only
  rw [View.read_writes_eq_canon _ _ _ (View.cover_of_tiledL _ S1x16x512.size (by sl_kernel_rfl)), View.canon_unit_zero hz3]
  simp only [View.readAt_eq_ld, harg2.read_unread, harg3.read_unread, View.ld_unit_zero (S := S16x3x256) hz3,
    View.ld_unit_zero (S := S16x3x512) hz3]

end Cert.Kernel.Body

end
-- ==== Proof.K.Body.lean ====
/-
  The frame of the fused distance kernel: its proof data, the body's obligation at every grid point, the run of the
  whole program, and the frame claim.

  The grid is 16 row tiles by 8 column tiles; position `n` is row tile `n / 8`, column tile `n % 8`. The row-minimum
  buffer is an accumulator over the column tiles of one row tile: at a first column tile the body stores the tile's
  row minima into it, at a later one it folds the tile's row minima into what the previous point left (the buffer is
  written back only after the eighth column tile). The column-minimum buffer is stored afresh at every point and
  written back at every point. Both input blocks are only read.
-/
import proofs.«109425_j1408749273445_2_alg».proof.Proof.Gen.Kernel.Frame
import proofs.«109425_j1408749273445_2_alg».proof.Proof.K.RunA
import proofs.«109425_j1408749273445_2_alg».proof.Proof.K.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold after each point -/

/-- The row-minimum buffer after the body at position `n`: at a first column tile the tile's row minima, at a later
    one their entrywise minimum with what the buffer held after position `n - 1`. -/
def rowAt (c : Dev nD) : (n : ℕ) → n < cfg0.N → Vec F S16x256 .f32
  | 0, hn => k0_pay4 (iblk m c 0 ⟨0, hn⟩) (iblk m c 1 ⟨0, hn⟩)
  | n + 1, hn =>
    if (n + 1) % 8 = 0 then k0_pay4 (iblk m c 0 ⟨n + 1, hn⟩) (iblk m c 1 ⟨n + 1, hn⟩)
    else k0_pay1 (k0_pay4 (iblk m c 0 ⟨n + 1, hn⟩) (iblk m c 1 ⟨n + 1, hn⟩)) (rowAt c n (Nat.lt_of_succ_lt hn))

/-- At a first column tile: the tile's row minima. -/
theorem rowAt_first (c : Dev nD) (t : Fin cfg0.N) (h0 : t.val % 8 = 0) :
    rowAt m c t.val t.isLt = k0_pay4 (iblk m c 0 t) (iblk m c 1 t) := by
  obtain ⟨n, hn⟩ := t
  cases n with
  | zero => exact rfl
  | succ n => exact (if_pos h0).trans rfl

/-- At a later column tile: folded into what the point before left. -/
theorem rowAt_later (c : Dev nD) (t : Fin cfg0.N) (h0 : ¬t.val % 8 = 0) :
    rowAt m c t.val t.isLt = k0_pay1 (k0_pay4 (iblk m c 0 t) (iblk m c 1 t))
      (rowAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The column-minimum buffer after the body at point `t`: the tile's column minima, with a leading unit axis. -/
def colAt (c : Dev nD) (t : Fin cfg0.N) : Vec F S1x16x512 .f32 := k0_pay2 (k0_pay5 (iblk m c 0 t) (iblk m c 1 t))

/-! ## The pipeline's proof data -/

/-- The arrays as the region finds them; after the body each input buffer at its block, the row-minimum buffer at
    `rowAt`, the column-minimum buffer at `colAt`; the invariant is the rest of the scoped memory and the generator
    register, which the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowAt m c t.val t.isLt
    | ⟨3, _⟩ => colAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = rowAt m c t.val t.isLt := by dsimp only [dats]
theorem after3 (c : Dev nD) (t : Fin cfg0.N) : (dats m 0 c).after 3 t = colAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later column tile the row-minimum buffer holds what the body left at the point before: that point did not
    write the block back (write-backs happen after the eighth column tile only), and the body stores into the buffer
    at every point. -/
theorem before2_later (c : Dev nD) (t : Fin cfg0.N) (h0 : ¬t.val % 8 = 0) (d) :
    (dats m 0 c).before 2 t d = rowAt m c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    live_rowmin (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [after0]
theorem leaves1 (c : Dev nD) (t : Fin cfg0.N) :
    (dats m 0 c).leavesExact 1 t = owns (c : Thread nD τ) (ms1 t) fullShare (iblk m c 1 t) := by
  unfold Dat.leavesExact; rw [after1]
theorem leaves2 (c : Dev nD) (t : Fin cfg0.N) :
    (dats m 0 c).leavesExact 2 t = owns (c : Thread nD τ) (ms2 t) fullShare (rowAt m c t.val t.isLt) := by
  unfold Dat.leavesExact; rw [live_rowmin (grid0.coords t), after2]
theorem leaves3 (c : Dev nD) (t : Fin cfg0.N) :
    (dats m 0 c).leavesExact 3 t = owns (c : Thread nD τ) (ms3 t) fullShare (colAt m c t) := by
  unfold Dat.leavesExact; rw [after3]

set_option maxHeartbeats 800000 in
/-- The body at any point: the inputs' buffers hold their blocks; the position says whether the point is a first or
    a later column tile; at a later one the row-minimum buffer holds what the point before left; so the matching run
    applies. The invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val % 8 = 0
  · rw [rowAt_first m c t h0]
    unfold colAt
    iintro ⟨HΦ, Ho, ⟨%d0, H0⟩, ⟨%d1, H1⟩, ⟨%d2, H2⟩, ⟨%d3, H3⟩⟩
    iapply (kernelRunA c (grid0.coords t) _ _ _ _ _ _ _ _ ((first_iff t).mpr h0) (fun h => (later_iff t).mp h h0)
      (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [rowAt_later m c t h0]
    simp only [before2_later m c t h0]
    unfold colAt
    iintro ⟨HΦ, Ho, ⟨%d0, H0⟩, ⟨%d1, H1⟩, ⟨%d2, H2⟩, ⟨%d3, H3⟩⟩
    iapply (kernelRunB c (grid0.coords t) _ _ _ _ _ _ _ _ (fun h => h0 ((first_iff t).mp h)) ((later_iff t).mpr h0)
      (iblk m c 0 t) (iblk m c 1 t) _ Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the whole program terminates; each array of the pipeline ends at what the
    library computes from the proof data, every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Conds.lean ====
/-
  The grid of the fused distance kernel is 16 row tiles by 8 column tiles, visited row tile by row tile. The body
  branches twice on the column-tile coordinate: "this is the first column tile" (store the tile's row minima) and
  "this is a later column tile" (fold the tile's row minima into the stored ones). Here both conditions are decided
  over the 128 grid points in terms of the point's position: the first holds exactly at the positions divisible
  by 8, the second exactly at the others. So the row-minimum buffer is written at every point.
-/
import proofs.«109425_j1408749273445_2_alg».proof.Proof.Gen.KernelIdeal.Frame
import proofs.«109425_j1408749273445_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first-column-tile condition holds exactly at the positions divisible by 8. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The later-column-tile condition holds exactly at the other positions. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One of the two conditions holds at every grid coordinate, so the body stores into the row-minimum buffer at
    every point: the conditions read only the column-tile coordinate, which has eight values. -/
theorem live_rowmin : ∀ i : grid0.Coords, cfg0.idle 2 i = false := by
  intro i
  show (!(k0_cond1 i == 1#1) && !(k0_cond2 i == 1#1)) = false
  unfold k0_cond1 k0_cond2
  dsimp only
  generalize i 1 = k
  revert k
  decide

/-- Each window's current staging buffer at a point, as the pipeline passes it to the body, and that it is a whole
    buffer. -/
abbrev ms0 (t : Fin cfg0.N) : Memref sig .tc .vmem S16x3x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x3x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x512 .f32 := win0_3.stage (cfg0.slots t 3)
abbrev hs3 (t : Fin cfg0.N) : (ms3 t).IsWhole := hstage0_3 ((cfg0.slots t 3).cast nbuf0_3)

end Cert.KernelIdeal.Body

end
-- ==== Proof.KI.RunA.lean ====
/-
  The body of the fused distance kernel at a FIRST column tile, run on whole staging buffers. From the two input
  blocks it forms the tile of squared distances, takes its minimum along each row and along each column, stores the row
  minima over whatever the row-minimum buffer held, and stores the column minima over whatever the
  column-minimum buffer held. The input blocks are left as they were.
-/
import proofs.«109425_j1408749273445_2_alg».proof.Proof.Gen.KernelIdeal.Frame
import proofs.«109425_j1408749273445_2_alg».proof.Proof.KI.Conds
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging buffers — the inputs' at their blocks `x0`, `x1`, the row-minimum buffer at anything, the
    column-minimum buffer at anything — the body at a first column tile runs to the continuation, leaving the input
    blocks in place, the row-minimum buffer at the tile's row minima, and the column-minimum
    buffer at the tile's column minima (re-laid with a leading unit axis). -/
theorem kernelRunA (c : Dev nD) (i : grid0.Coords)
    (arg2 : Memref sig .tc .vmem S16x3x256 .f32) (harg2 : arg2.IsWhole) (arg3 : Memref sig .tc .vmem S16x3x512 .f32) (harg3 : arg3.IsWhole)
    (arg4 : Memref sig .tc .vmem S16x256 .f32) (harg4 : arg4.IsWhole) (arg5 : Memref sig .tc .vmem S1x16x512 .f32) (harg5 : arg5.IsWhole)
    (hc1 : k0_cond1 i = 1#1) (hc2 : ¬k0_cond2 i = 1#1)
    (x0 : Vec F S16x3x256 .f32) (x1 : Vec F S16x3x512 .f32)
    (E : Set ℕ) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay4 x0 x1)
            ∗ owns (c : Thread nD τ) arg5 fullShare (k0_pay2 (k0_pay5 x0 x1))) -∗ K ⟨⟩))
      ⊢ wp frame (wpE (defs₀ (F := F)) Variants.none c none) E (cc0__fused_kernel i arg2 harg2 arg3 harg3 arg4 harg4 arg5 harg5) K := by
  have hz2 : (![0, 0] : Fin 2 → Nat) = fun _ => 0 := by funext a; fin_cases a <;> rfl
  have hz3 : (![0, 0, 0] : Fin 3 → Nat) = fun _ => 0 := by funext a; fin_cases a <;> rfl
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (View.cover_of_tiledL _ S16x256.size (by sl_kernel_rfl)), View.canon_unit_zero hz2]
    simp only [View.readAt_eq_ld, harg2.read_unread, harg3.read_unread, View.ld_unit_zero (S := S16x3x256) hz3,
      View.ld_unit_zero (S := S16x3x512) hz3]
  iexists _; isplitr; swap; · iexact H3
  ipureintro
  dsimp only
  rw [View.read_writes_eq_canon _ _ _ (View.cover_of_tiledL _ S1x16x512.size (by sl_kernel_rfl)), View.canon_unit_zero hz3]
  simp only [View.readAt_eq_ld, harg2.read_unread, harg3.read_unread, View.ld_unit_zero (S := S16x3x256) hz3,
    View.ld_unit_zero (S := S16x3x512) hz3]

end Cert.KernelIdeal.Body

end
-- ==== Proof.KI.RunB.lean ====
/-
  The body of the fused distance kernel at a LATER column tile, run on whole staging buffers. From the two input
  blocks it forms the tile of squared distances, takes its minimum along each row and along each column, folds the row
  minima into what the row-minimum buffer holds (entrywise minimum), and stores the column minima over whatever the
  column-minimum buffer held. The input blocks are left as they were.
-/
import proofs.«109425_j1408749273445_2_alg».proof.Proof.Gen.KernelIdeal.Frame
import proofs.«109425_j1408749273445_2_alg».proof.Proof.KI.Conds
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging buffers — the inputs' at their blocks `x0`, `x1`, the row-minimum buffer at its running contents `xo`, the
    column-minimum buffer at anything — the body at a later column tile runs to the continuation, leaving the input
    blocks in place, the row-minimum buffer at the entrywise minimum of `xo` and the tile's row minima, and the column-minimum
    buffer at the tile's column minima (re-laid with a leading unit axis). -/
theorem kernelRunB (c : Dev nD) (i : grid0.Coords)
    (arg2 : Memref sig .tc .vmem S16x3x256 .f32) (harg2 : arg2.IsWhole) (arg3 : Memref sig .tc .vmem S16x3x512 .f32) (harg3 : arg3.IsWhole)
    (arg4 : Memref sig .tc .vmem S16x256 .f32) (harg4 : arg4.IsWhole) (arg5 : Memref sig .tc .vmem S1x16x512 .f32) (harg5 : arg5.IsWhole)
    (hc1 : ¬k0_cond1 i = 1#1) (hc2 : k0_cond2 i = 1#1)
    (x0 : Vec F S16x3x256 .f32) (x1 : Vec F S16x3x512 .f32) (xo : Vec F S16x256 .f32)
    (E : Set ℕ) (K : PUnit → sProp 𝕄) :
    iprop(owns (c : Thread nD τ) arg2 fullShare x0 ∗ owns (c : Thread nD τ) arg3 fullShare x1
        ∗ owns (c : Thread nD τ) arg4 fullShare xo ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay1 (k0_pay4 x0 x1) xo)
            ∗ owns (c : Thread nD τ) arg5 fullShare (k0_pay2 (k0_pay5 x0 x1))) -∗ K ⟨⟩))
      ⊢ wp frame (wpE (defs₀ (F := F)) Variants.none c none) E (cc0__fused_kernel i arg2 harg2 arg3 harg3 arg4 harg4 arg5 harg5) K := by
  have hz2 : (![0, 0] : Fin 2 → Nat) = fun _ => 0 := by funext a; fin_cases a <;> rfl
  have hz3 : (![0, 0, 0] : Fin 3 → Nat) = fun _ => 0 := by funext a; fin_cases a <;> rfl
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_eq_canon _ _ _ (View.cover_of_tiledL _ S16x256.size (by sl_kernel_rfl)), View.canon_unit_zero hz2]
    simp only [View.readAt_eq_ld, harg2.read_unread, harg3.read_unread, harg4.read_unread, View.ld_unit_zero (S := S16x3x256) hz3,
      View.ld_unit_zero (S := S16x3x512) hz3, View.ld_unit_zero (S := S16x256) hz2]
  iexists _; isplitr; swap; · iexact H3
  ipureintro
  dsimp only
  rw [View.read_writes_eq_canon _ _ _ (View.cover_of_tiledL _ S1x16x512.size (by sl_kernel_rfl)), View.canon_unit_zero hz3]
  simp only [View.readAt_eq_ld, harg2.read_unread, harg3.read_unread, View.ld_unit_zero (S := S16x3x256) hz3,
    View.ld_unit_zero (S := S16x3x512) hz3]

end Cert.KernelIdeal.Body

end
-- ==== Proof.KI.Body.lean ====
/-
  The frame of the fused distance kernel: its proof data, the body's obligation at every grid point, the run of the
  whole program, and the frame claim.

  The grid is 16 row tiles by 8 column tiles; position `n` is row tile `n / 8`, column tile `n % 8`. The row-minimum
  buffer is an accumulator over the column tiles of one row tile: at a first column tile the body stores the tile's
  row minima into it, at a later one it folds the tile's row minima into what the previous point left (the buffer is
  written back only after the eighth column tile). The column-minimum buffer is stored afresh at every point and
  written back at every point. Both input blocks are only read.
-/
import proofs.«109425_j1408749273445_2_alg».proof.Proof.Gen.KernelIdeal.Frame
import proofs.«109425_j1408749273445_2_alg».proof.Proof.KI.RunA
import proofs.«109425_j1408749273445_2_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output buffers hold after each point -/

/-- The row-minimum buffer after the body at position `n`: at a first column tile the tile's row minima, at a later
    one their entrywise minimum with what the buffer held after position `n - 1`. -/
def rowAt (c : Dev nD) : (n : ℕ) → n < cfg0.N → Vec F S16x256 .f32
  | 0, hn => k0_pay4 (iblk m c 0 ⟨0, hn⟩) (iblk m c 1 ⟨0, hn⟩)
  | n + 1, hn =>
    if (n + 1) % 8 = 0 then k0_pay4 (iblk m c 0 ⟨n + 1, hn⟩) (iblk m c 1 ⟨n + 1, hn⟩)
    else k0_pay1 (k0_pay4 (iblk m c 0 ⟨n + 1, hn⟩) (iblk m c 1 ⟨n + 1, hn⟩)) (rowAt c n (Nat.lt_of_succ_lt hn))

/-- At a first column tile: the tile's row minima. -/
theorem rowAt_first (c : Dev nD) (t : Fin cfg0.N) (h0 : t.val % 8 = 0) :
    rowAt m c t.val t.isLt = k0_pay4 (iblk m c 0 t) (iblk m c 1 t) := by
  obtain ⟨n, hn⟩ := t
  cases n with
  | zero => exact rfl
  | succ n => exact (if_pos h0).trans rfl

/-- At a later column tile: folded into what the point before left. -/
theorem rowAt_later (c : Dev nD) (t : Fin cfg0.N) (h0 : ¬t.val % 8 = 0) :
    rowAt m c t.val t.isLt = k0_pay1 (k0_pay4 (iblk m c 0 t) (iblk m c 1 t))
      (rowAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The column-minimum buffer after the body at point `t`: the tile's column minima, with a leading unit axis. -/
def colAt (c : Dev nD) (t : Fin cfg0.N) : Vec F S1x16x512 .f32 := k0_pay2 (k0_pay5 (iblk m c 0 t) (iblk m c 1 t))

/-! ## The pipeline's proof data -/

/-- The arrays as the region finds them; after the body each input buffer at its block, the row-minimum buffer at
    `rowAt`, the column-minimum buffer at `colAt`; the invariant is the rest of the scoped memory and the generator
    register, which the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowAt m c t.val t.isLt
    | ⟨3, _⟩ => colAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = rowAt m c t.val t.isLt := by dsimp only [dats]
theorem after3 (c : Dev nD) (t : Fin cfg0.N) : (dats m 0 c).after 3 t = colAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a later column tile the row-minimum buffer holds what the body left at the point before: that point did not
    write the block back (write-backs happen after the eighth column tile only), and the body stores into the buffer
    at every point. -/
theorem before2_later (c : Dev nD) (t : Fin cfg0.N) (h0 : ¬t.val % 8 = 0) (d) :
    (dats m 0 c).before 2 t d = rowAt m c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    live_rowmin (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0 t) fullShare (iblk m c 0 t) := by
  unfold Dat.leavesExact; rw [after0]
theorem leaves1 (c : Dev nD) (t : Fin cfg0.N) :
    (dats m 0 c).leavesExact 1 t = owns (c : Thread nD τ) (ms1 t) fullShare (iblk m c 1 t) := by
  unfold Dat.leavesExact; rw [after1]
theorem leaves2 (c : Dev nD) (t : Fin cfg0.N) :
    (dats m 0 c).leavesExact 2 t = owns (c : Thread nD τ) (ms2 t) fullShare (rowAt m c t.val t.isLt) := by
  unfold Dat.leavesExact; rw [live_rowmin (grid0.coords t), after2]
theorem leaves3 (c : Dev nD) (t : Fin cfg0.N) :
    (dats m 0 c).leavesExact 3 t = owns (c : Thread nD τ) (ms3 t) fullShare (colAt m c t) := by
  unfold Dat.leavesExact; rw [after3]

set_option maxHeartbeats 800000 in
/-- The body at any point: the inputs' buffers hold their blocks; the position says whether the point is a first or
    a later column tile; at a later one the row-minimum buffer holds what the point before left; so the matching run
    applies. The invariant passes through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    leaves0, leaves1, leaves2, leaves3]
  by_cases h0 : t.val % 8 = 0
  · rw [rowAt_first m c t h0]
    unfold colAt
    iintro ⟨HΦ, Ho, ⟨%d0, H0⟩, ⟨%d1, H1⟩, ⟨%d2, H2⟩, ⟨%d3, H3⟩⟩
    iapply (kernelRunA c (grid0.coords t) _ _ _ _ _ _ _ _ ((first_iff t).mpr h0) (fun h => (later_iff t).mp h h0)
      (iblk m c 0 t) (iblk m c 1 t) Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [rowAt_later m c t h0]
    simp only [before2_later m c t h0]
    unfold colAt
    iintro ⟨HΦ, Ho, ⟨%d0, H0⟩, ⟨%d1, H1⟩, ⟨%d2, H2⟩, ⟨%d3, H3⟩⟩
    iapply (kernelRunB c (grid0.coords t) _ _ _ _ _ _ _ _ (fun h => h0 ((first_iff t).mp h)) ((later_iff t).mpr h0)
      (iblk m c 0 t) (iblk m c 1 t) _ Set.univ _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the whole program terminates; each array of the pipeline ends at what the
    library computes from the proof data, every other unscoped buffer as the host operations after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Dist.lean ====
/-
  The squared distance between two points of R^3, as the sum over the three coordinates of the squared
  difference, accumulated from zero in coordinate order, over the extended reals; and what it means for an
  extended real to be the minimum of a finite family: it lies below exactly the lower bounds of the family.

  Two clouds of 4096 points per batch entry (16 entries) are given as arrays indexed by (entry, point,
  coordinate). `sqDist a1 a2 b i j` is the squared distance from point `i` of the first cloud to point `j` of
  the second, both of entry `b`.
-/
import Idealize.ShloMosaic.PureOps.Ideal
import Idealize.ShloMosaic.Lib.ValueIdx

noncomputable section

namespace Cert.Dist

open Idealize.ShloMosaic Idealize.ShloMosaic.ValueIdx

/-- The clouds' shape: 16 batch entries, 4096 points, 3 coordinates. -/
abbrev Cloud : Shape := ⟨3, ![16, 4096, 3]⟩

/-- The squared difference of two extended reals. -/
def sq (x y : EReal) : EReal := (x - y) * (x - y)

/-- The squared distance from point `i` of the first cloud to point `j` of the second, in entry `b`: zero plus the
    three squared coordinate differences, added in coordinate order. -/
def sqDist (a1 a2 : Cloud.Idx → EReal) (b : Fin 16) (i j : Fin 4096) : EReal :=
  0 + sq (a1 (ix3 b i 0)) (a2 (ix3 b j 0)) + sq (a1 (ix3 b i 1)) (a2 (ix3 b j 1))
    + sq (a1 (ix3 b i 2)) (a2 (ix3 b j 2))

/-- `v` is the minimum of the family `f` (with the empty family's minimum the top element): the extended reals
    below `v` are exactly the lower bounds of `f`. Two minima of one family are equal (`IsMinOf.unique`), and the
    minimum of a family of minima is the minimum of the union. -/
def IsMinOf {ι : Type} (v : EReal) (f : ι → EReal) : Prop := ∀ c : EReal, c ≤ v ↔ ∀ n, c ≤ f n

theorem IsMinOf.unique {ι : Type} {v w : EReal} {f : ι → EReal} (hv : IsMinOf v f) (hw : IsMinOf w f) : v = w :=
  eq_of_forall_le_iff fun c => (hv c).trans (hw c).symm

/-- A fold of `min` from the top element over a finite index type is the family's minimum. -/
theorem isMinOf_fold {ι : Type} [Fintype ι] (f : ι → EReal) :
    IsMinOf ((Finset.univ : Finset ι).fold min ⊤ f) f := fun c => by
  rw [Finset.le_fold_min]
  exact ⟨fun h n => h.2 n (Finset.mem_univ n), fun h => ⟨le_top, fun n _ => h n⟩⟩

end Cert.Dist

end
-- ==== Proof.KPay.lean ====
/-
  The kernel body's arithmetic, read at an index, over the extended reals.

  The body computes, for one batch entry `b`, a tile of squared distances between 256 points of the first cloud and
  512 points of the second (each given by its three coordinate rows), then the minimum of the tile along each of its
  two point axes. Here each of these values is read at an index given by coordinates: the tile's element is zero plus
  the three squared coordinate differences, added in coordinate order; each reduction's element is the minimum of the
  corresponding row or column of the tile.
-/
import proofs.«109425_j1408749273445_2_alg».proof.Proof.Gen.KernelIdeal.Skeleton
import proofs.«109425_j1408749273445_2_alg».proof.Proof.Dist
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic ValueIdx

variable [Cert.KernelIdeal.Facts]

/-- The stored minimum of a loaded vector and a value, at an index: the minimum of the two elements. -/
theorem pay1_apply (v38 : FVec Ideal S16x256 .f32) (v48 : Vec Ideal S16x256 .f32) (y : S16x256.Idx) :
    k0_pay1 (F := Ideal) v38 v48 y = min (v48 y) (v38 y) := by
  unfold k0_pay1
  rw [shapeCast_self]
  rfl

/-- A `[16, 512]` value stored as a `[1, 16, 512]` block reads, at `(0, b, n)`, the value at `(b, n)`. -/
theorem pay2_apply (v39 : FVec Ideal S16x512 .f32) (b : Fin 16) (n : Fin 512) :
    k0_pay2 (F := Ideal) v39 (ix3 0 b n) = v39 (ix2 b n) := by
  unfold k0_pay2
  exact shapeCast_ab_1ab_apply v39 _ 0 b n

/-- A minimum reduction over one axis, read at an index of the result: the fold of `min` from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The accumulator word of both reductions denotes the top element. -/
theorem acc_top : FloatOps.ofBits (F := Ideal) .f32 0x7F800000#32 = (⊤ : EReal) := by
  simp [Ideal.ofBits, Ideal.ieee]

/-- Over the result index `(b, r)` of the reduction along the last axis, the source index with coordinate `n` inserted
    is `(b, r, n)`. -/
theorem lift2 (h : S16x256x512.Reduces [2] S16x256) (b : Fin 16) (r : Fin 256) (n : Fin 512) :
    h.lift (ix2 b r) n = ix3 b r n := by
  funext c
  apply Fin.ext
  match c with
  | ⟨0, _⟩ => rfl
  | ⟨1, _⟩ => rfl
  | ⟨2, _⟩ => rfl

/-- Over the result index `(b, n)` of the reduction along the middle axis, the source index with coordinate `r`
    inserted is `(b, r, n)`. -/
theorem lift1 (h : S16x256x512.Reduces [1] S16x512) (b : Fin 16) (n : Fin 512) (r : Fin 256) :
    h.lift (ix2 b n) r = ix3 b r n := by
  funext c
  apply Fin.ext
  match c with
  | ⟨0, _⟩ => rfl
  | ⟨1, _⟩ => rfl
  | ⟨2, _⟩ => rfl

variable (x0 : Vec Ideal S16x3x256 .f32) (x1 : Vec Ideal S16x3x512 .f32)

/-- The reduction of the tile along its last axis is, at `(b, r)`, the minimum of the tile's row `(b, r, ·)`. -/
theorem pay4_isMin (b : Fin 16) (r : Fin 256) :
    Cert.Dist.IsMinOf (k0_pay4 (F := Ideal) x0 x1 (ix2 b r)) (fun n : Fin 512 => k0_pay3 (F := Ideal) x0 x1 (ix3 b r n)) := by
  have hred : k0_pay4 (F := Ideal) x0 x1 (ix2 b r)
      = (Finset.univ : Finset (Fin 512)).fold min (FloatOps.ofBits (F := Ideal) .f32 0x7F800000#32)
          (k0_pay3 (F := Ideal) x0 x1 ∘ reduces_S16x256x512_S16x256.lift (ix2 b r)) :=
    multiReduction_minimumf_single (k0_pay3 (F := Ideal) x0 x1) 0x7F800000#32 reduces_S16x256x512_S16x256 (.inl rfl) rfl (ix2 b r)
  rw [hred, acc_top]
  have hf : (k0_pay3 (F := Ideal) x0 x1 ∘ reduces_S16x256x512_S16x256.lift (ix2 b r))
      = fun n : Fin 512 => k0_pay3 (F := Ideal) x0 x1 (ix3 b r n) := by
    funext n
    exact congrArg (k0_pay3 (F := Ideal) x0 x1) (lift2 _ b r n)
  rw [hf]
  exact Cert.Dist.isMinOf_fold _

/-- The reduction of the tile along its middle axis is, at `(b, n)`, the minimum of the tile's column `(b, ·, n)`. -/
theorem pay5_isMin (b : Fin 16) (n : Fin 512) :
    Cert.Dist.IsMinOf (k0_pay5 (F := Ideal) x0 x1 (ix2 b n)) (fun r : Fin 256 => k0_pay3 (F := Ideal) x0 x1 (ix3 b r n)) := by
  have hred : k0_pay5 (F := Ideal) x0 x1 (ix2 b n)
      = (Finset.univ : Finset (Fin 256)).fold min (FloatOps.ofBits (F := Ideal) .f32 0x7F800000#32)
          (k0_pay3 (F := Ideal) x0 x1 ∘ reduces_S16x256x512_S16x512.lift (ix2 b n)) :=
    multiReduction_minimumf_single (k0_pay3 (F := Ideal) x0 x1) 0x7F800000#32 reduces_S16x256x512_S16x512 (.inl rfl) rfl (ix2 b n)
  rw [hred, acc_top]
  have hf : (k0_pay3 (F := Ideal) x0 x1 ∘ reduces_S16x256x512_S16x512.lift (ix2 b n))
      = fun r : Fin 256 => k0_pay3 (F := Ideal) x0 x1 (ix3 b r n) := by
    funext r
    exact congrArg (k0_pay3 (F := Ideal) x0 x1) (lift1 _ b n r)
  rw [hf]
  exact Cert.Dist.isMinOf_fold _

section Layout
variable {α : Type}

/-- An `[a, 1, c]` array cast to `[a, c]` reads, at `(i, j)`, the operand at `(i, 0, j)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (j : Fin c) :
    shapeCast ⟨2, ![a, c]⟩ x h (ix2 i j) = x (ix3 i (0 : Fin 1) j) :=
  shapeCast_apply x h _ _ (by
    rw [Shape.rowMajor_val_three, Shape.rowMajor_val_two]
    show (i.val * 1 + 0) * c + j.val = i.val * c + j.val
    rw [Nat.mul_one, Nat.add_zero])

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, c]` array cast to `[a, c, 1]` reads, at `(i, j, u)`, the operand at `(i, j)`. -/
theorem shapeCast_ac_ac1_apply {a c : ℕ} (x : (⟨2, ![a, c]⟩ : Shape).Idx → α)
    (h : (⟨2, ![a, c]⟩ : Shape).ShapeCasts ⟨3, ![a, c, 1]⟩) (i : Fin a) (j : Fin c) (u : Fin 1) :
    shapeCast ⟨3, ![a, c, 1]⟩ x h (ix3 i j u) = x (ix2 i j) :=
  shapeCast_apply x h _ _ (by
    have hu : u.val = 0 := by omega
    rw [Shape.rowMajor_val_three, Shape.rowMajor_val_two]
    show i.val * c + j.val = (i.val * c + j.val) * 1 + u.val
    rw [hu, Nat.mul_one, Nat.add_zero])

/-- An `[a, c, 1]` array broadcast to `[a, c, d]` reads, at `(i, j, k)`, the operand's one element `(i, j, 0)` of that
    row. -/
theorem broadcastTo_ac1_acd_apply {a c d : ℕ} (v : (⟨3, ![a, c, 1]⟩ : Shape).Idx → α)
    (h : (⟨3, ![a, c, 1]⟩ : Shape).Broadcasts ⟨3, ![a, c, d]⟩) (i : Fin a) (j : Fin c) (k : Fin d) :
    broadcastTo ⟨3, ![a, c, d]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if c = 1 then 0 else j.val
    split
    · have := j.isLt; omega
    · rfl
  | ⟨2, _⟩ => rfl

/-- An `[a, 1, d]` array broadcast to `[a, c, d]` reads, at `(i, j, k)`, the operand's one row `(i, 0, k)`. -/
theorem broadcastTo_a1d_acd_apply {a c d : ℕ} (v : (⟨3, ![a, 1, d]⟩ : Shape).Idx → α)
    (h : (⟨3, ![a, 1, d]⟩ : Shape).Broadcasts ⟨3, ![a, c, d]⟩) (i : Fin a) (j : Fin c) (k : Fin d) :
    broadcastTo ⟨3, ![a, c, d]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if d = 1 then 0 else k.val
    split
    · have := k.isLt; omega
    · rfl

end Layout

/-- Coordinate row `c` of the first cloud's block, taken as a column and repeated along the tile's last axis, reads at
    `(b, r, n)` the block at `(b, c, r)`. -/
theorem colA (o : ℕ) (c : Fin 3) (hc : c.val = o) (x : FVec Ideal S16x3x256 .f32)
    (hs : S16x3x256.Slices ![0, o, 0] S16x1x256) (b : Fin 16) (r : Fin 256) (n : Fin 512) :
    broadcastTo S16x256x512 (shapeCast S16x256x1 (shapeCast S16x256 (extractStridedSlice S16x1x256 ![0, o, 0] x hs)
      shapeCasts_S16x1x256_S16x256) shapeCasts_S16x256_S16x256x1) broadcasts_S16x256x1_S16x256x512 (ix3 b r n)
      = x (ix3 b c r) := by
  rw [broadcastTo_ac1_acd_apply, shapeCast_ac_ac1_apply, shapeCast_a1c_ac_apply]
  exact slice3_axis1_apply o x hs b 0 r c (by omega)

/-- Coordinate row `c` of the second cloud's block, taken as a row and repeated along the tile's middle axis, reads at
    `(b, r, n)` the block at `(b, c, n)`. -/
theorem colB (o : ℕ) (c : Fin 3) (hc : c.val = o) (x : FVec Ideal S16x3x512 .f32)
    (hs : S16x3x512.Slices ![0, o, 0] S16x1x512) (b : Fin 16) (r : Fin 256) (n : Fin 512) :
    broadcastTo S16x256x512 (shapeCast S16x1x512 (shapeCast S16x512 (extractStridedSlice S16x1x512 ![0, o, 0] x hs)
      shapeCasts_S16x1x512_S16x512) shapeCasts_S16x512_S16x1x512) broadcasts_S16x1x512_S16x256x512 (ix3 b r n)
      = x (ix3 b c n) := by
  rw [broadcastTo_a1d_acd_apply, shapeCast_ac_a1c_apply, shapeCast_a1c_ac_apply]
  exact slice3_axis1_apply o x hs b 0 n c (by omega)

/-- The tile of squared distances at `(b, r, n)`: zero plus the three squared coordinate differences between point `r` of
    the first block and point `n` of the second, added in coordinate order. -/
theorem pay3_apply (b : Fin 16) (r : Fin 256) (n : Fin 512) :
    k0_pay3 (F := Ideal) x0 x1 (ix3 b r n)
      = 0 + Cert.Dist.sq (x0 (ix3 b 0 r)) (x1 (ix3 b 0 n)) + Cert.Dist.sq (x0 (ix3 b 1 r)) (x1 (ix3 b 1 n))
          + Cert.Dist.sq (x0 (ix3 b 2 r)) (x1 (ix3 b 2 n)) := by
  have h0 : Scalar.ofBits (F := Ideal) .f32 0x00000000#32 = (0 : EReal) := Ideal.ofBits_zero_f32
  unfold k0_pay3
  simp only [addf_apply, mulf_apply, subf_apply, broadcast_apply, shapeCast_self]
  rw [colA 0 0 rfl, colA 1 1 rfl, colA 2 2 rfl, colB 0 0 rfl, colB 1 1 rfl, colB 2 2 rfl, h0]
  rfl

end Cert.KernelIdeal.Pay

end
-- ==== Proof.KBlocks.lean ====
/-
  The two input blocks of a grid point, read at an index.

  Each cloud of points, given as an array indexed by (entry, point, coordinate), is first rearranged to
  (entry, coordinate, point). The grid has 16 x 8 points; point `t` is row tile `t / 8` and column tile `t % 8`. The
  first input block at `t` is the 256 points of the first cloud from `256 * (t / 8)` on, the second the 512 points of
  the second cloud from `512 * (t % 8)` on; so the block's element at (entry `b`, coordinate `k`, point `r`) is the
  cloud's element at (entry `b`, point `offset + r`, coordinate `k`).
-/
import proofs.«109425_j1408749273445_2_alg».proof.Proof.Gen.KernelIdeal.Frame
import Idealize.ShloMosaic.Lib.ValueIdx
import Idealize.ShloMosaic.Lib.ValueLayout
import Idealize.ShloMosaic.Lib.Pipeline.Value
import Idealize.ShloMosaic.Lib.Tactic

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD)

/-- The first rearranged array as the region finds it: the first cloud with its last two axes swapped. -/
theorem V_main_v0 :
    (V m c main_v0 : S16x3x4096.Idx → EReal)
      = transpose S16x3x4096 [0, 2, 1] (m ((c : Thread nD τ).loc main_arg0) : S16x4096x3.Idx → EReal)
          transposes_S16x4096x3_S16x3x4096_0_2_1 := by
  show StableHlo.after hostOps0 (fun b => m (c, b)) (Proc.devRef .tc main_v0) = _
  after_results

/-- The second rearranged array as the region finds it: the second cloud with its last two axes swapped. -/
theorem V_main_v1 :
    (V m c main_v1 : S16x3x4096.Idx → EReal)
      = transpose S16x3x4096 [0, 2, 1] (m ((c : Thread nD τ).loc main_arg1) : S16x4096x3.Idx → EReal)
          transposes_S16x4096x3_S16x3x4096_0_2_1 := by
  show StableHlo.after hostOps0 (fun b => m (c, b)) (Proc.devRef .tc main_v1) = _
  after_results

/-- The rearranged first cloud at (entry, coordinate, point) is the cloud at (entry, point, coordinate). -/
theorem V_main_v0_apply (b : Fin 16) (k : Fin 3) (p : Fin 4096) :
    (V m c main_v0 : S16x3x4096.Idx → EReal) (ix3 b k p) = m ((c : Thread nD τ).loc main_arg0) (ix3 b p k) := by
  rw [V_main_v0]
  exact transpose_ix3_021_apply _ _ b k p

/-- The rearranged second cloud at (entry, coordinate, point) is the cloud at (entry, point, coordinate). -/
theorem V_main_v1_apply (b : Fin 16) (k : Fin 3) (p : Fin 4096) :
    (V m c main_v1 : S16x3x4096.Idx → EReal) (ix3 b k p) = m ((c : Thread nD τ).loc main_arg1) (ix3 b p k) := by
  rw [V_main_v1]
  exact transpose_ix3_021_apply _ _ b k p

/-- The block indices of the two input windows over the grid: both at the start of the first two axes; along the
    points the first window is at the row tile, the second at the column tile. -/
theorem idx_facts : ∀ t : Fin cfg0.N,
    (win0_0.index t 0 = 0 ∧ win0_0.index t 1 = 0 ∧ win0_0.index t 2 = t.val / 8)
      ∧ (win0_1.index t 0 = 0 ∧ win0_1.index t 1 = 0 ∧ win0_1.index t 2 = t.val % 8) :=
  (by decide +kernel : ∀ t : Fin grid0.N,
    (win0_0.index t 0 = 0 ∧ win0_0.index t 1 = 0 ∧ win0_0.index t 2 = t.val / 8)
      ∧ (win0_1.index t 0 = 0 ∧ win0_1.index t 1 = 0 ∧ win0_1.index t 2 = t.val % 8))

variable (t : Fin cfg0.N)

/-- A point of the first window's block lies inside the cloud. -/
theorem row_lt (r : Fin 256) : 256 * (t.val / 8) + r.val < 4096 := by
  have ht : t.val < 128 := lt_of_lt_of_eq t.isLt N_0
  omega

/-- A point of the second window's block lies inside the cloud. -/
theorem col_lt (n : Fin 512) : 512 * (t.val % 8) + n.val < 4096 := by
  omega

/-- The first window's block at `t` is the rearranged first cloud from point `256 * (t / 8)` on. -/
theorem iblk0_V (x : S16x3x256.Idx) (y : S16x3x4096.Idx) (h0 : (y 0).val = (x 0).val) (h1 : (y 1).val = (x 1).val)
    (h2 : (y 2).val = 256 * (t.val / 8) + (x 2).val) :
    (iblk (F := Ideal) m c 0 t : Vec Ideal S16x3x256 .f32) x = (V m c main_v0 : S16x3x4096.Idx → EReal) y := by
  have hi := (idx_facts t).1
  unfold iblk
  rw [View.read_apply]
  show V m c main_v0 _ = V m c main_v0 _
  congr 1
  funext a
  apply Fin.ext
  match a with
  | ⟨0, _⟩ => show win0_0.index t 0 * 16 + 1 * (x 0).val = (y 0).val; rw [hi.1, h0]; omega
  | ⟨1, _⟩ => show win0_0.index t 1 * 3 + 1 * (x 1).val = (y 1).val; rw [hi.2.1, h1]; omega
  | ⟨2, _⟩ => show win0_0.index t 2 * 256 + 1 * (x 2).val = (y 2).val; rw [hi.2.2, h2]; omega

/-- The second window's block at `t` is the rearranged second cloud from point `512 * (t % 8)` on. -/
theorem iblk1_V (x : S16x3x512.Idx) (y : S16x3x4096.Idx) (h0 : (y 0).val = (x 0).val) (h1 : (y 1).val = (x 1).val)
    (h2 : (y 2).val = 512 * (t.val % 8) + (x 2).val) :
    (iblk (F := Ideal) m c 1 t : Vec Ideal S16x3x512 .f32) x = (V m c main_v1 : S16x3x4096.Idx → EReal) y := by
  have hi := (idx_facts t).2
  unfold iblk
  rw [View.read_apply]
  show V m c main_v1 _ = V m c main_v1 _
  congr 1
  funext a
  apply Fin.ext
  match a with
  | ⟨0, _⟩ => show win0_1.index t 0 * 16 + 1 * (x 0).val = (y 0).val; rw [hi.1, h0]; omega
  | ⟨1, _⟩ => show win0_1.index t 1 * 3 + 1 * (x 1).val = (y 1).val; rw [hi.2.1, h1]; omega
  | ⟨2, _⟩ => show win0_1.index t 2 * 512 + 1 * (x 2).val = (y 2).val; rw [hi.2.2, h2]; omega

/-- The first window's block at `t`, at (entry `b`, coordinate `k`, point `r`): the first cloud at entry `b`, point
    `256 * (t / 8) + r`, coordinate `k`. -/
theorem iblk0_apply (b : Fin 16) (k : Fin 3) (r : Fin 256) :
    (iblk (F := Ideal) m c 0 t : Vec Ideal S16x3x256 .f32) (ix3 b k r)
      = m ((c : Thread nD τ).loc main_arg0) (ix3 b ⟨256 * (t.val / 8) + r.val, row_lt t r⟩ k) :=
  (iblk0_V m c t (ix3 b k r) (ix3 b k ⟨256 * (t.val / 8) + r.val, row_lt t r⟩) rfl rfl rfl).trans
    (V_main_v0_apply m c b k _)

/-- The second window's block at `t`, at (entry `b`, coordinate `k`, point `n`): the second cloud at entry `b`, point
    `512 * (t % 8) + n`, coordinate `k`. -/
theorem iblk1_apply (b : Fin 16) (k : Fin 3) (n : Fin 512) :
    (iblk (F := Ideal) m c 1 t : Vec Ideal S16x3x512 .f32) (ix3 b k n)
      = m ((c : Thread nD τ).loc main_arg1) (ix3 b ⟨512 * (t.val % 8) + n.val, col_lt t n⟩ k) :=
  (iblk1_V m c t (ix3 b k n) (ix3 b k ⟨512 * (t.val % 8) + n.val, col_lt t n⟩) rfl rfl rfl).trans
    (V_main_v1_apply m c b k _)

end Cert.KernelIdeal.Blocks

end
-- ==== Proof.KVal.lean ====
/-
  What the fused distance kernel's two output arrays hold after the run, at the ideal instance.

  Position `t` of the grid is row tile `t / 8` (rows `256 (t / 8) … 256 (t / 8) + 255` of the first cloud) and column
  tile `t % 8` (points `512 (t % 8) … 512 (t % 8) + 511` of the second cloud). The tile of squared distances at `t`
  holds, at (b, r, n), the squared distance from point `256 (t / 8) + r` of the first cloud to point `512 (t % 8) + n`
  of the second, in entry `b`. Hence:
  * the row-minimum buffer after position `t` holds, at (b, r), the minimum over the points of the second cloud in
    column tiles `0 … t % 8` — by induction along the row tile, the first column tile storing and each later one
    folding in its own tile's row minima; after the eighth column tile that is the minimum over the whole second cloud;
  * the column-minimum buffer after position `t` holds, at (0, b, n), the minimum over the 256 points of the row tile.
-/
import proofs.«109425_j1408749273445_2_alg».proof.Proof.KI.Body
import proofs.«109425_j1408749273445_2_alg».proof.Proof.KPay
import proofs.«109425_j1408749273445_2_alg».proof.Proof.KBlocks
import proofs.«109425_j1408749273445_2_alg».proof.Proof.Dist

set_option maxRecDepth 16384

noncomputable section

namespace Cert.KernelIdeal.Val

open Cert.KernelIdeal Cert.KernelIdeal.Gen Cert.KernelIdeal.Body Cert.KernelIdeal.Pay Cert.KernelIdeal.Blocks Cert.Dist
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The two clouds: the program's two argument arrays. -/
abbrev cloud1 : Cloud.Idx → EReal := m ((c : Thread nD τ).loc main_arg0)
abbrev cloud2 : Cloud.Idx → EReal := m ((c : Thread nD τ).loc main_arg1)

theorem N128 : cfg0.N = 128 := N_0

/-- The point of the first cloud that row `r` of the tile at position `t` is, and the point of the second cloud
    that column `n` is. -/
def rowOf (t : Fin cfg0.N) (r : Fin 256) : Fin 4096 :=
  ⟨256 * (t.val / 8) + r.val, by have := t.isLt; have := N128; have := r.isLt; omega⟩
def colOf (t : Fin cfg0.N) (n : Fin 512) : Fin 4096 :=
  ⟨512 * (t.val % 8) + n.val, by have := n.isLt; omega⟩

/-- The tile of squared distances at position `t`, entry by entry. -/
theorem tile_dist (t : Fin cfg0.N) (b : Fin 16) (r : Fin 256) (n : Fin 512) :
    k0_pay3 (F := Ideal) (iblk m c 0 t) (iblk m c 1 t) (ix3 b r n)
      = sqDist (cloud1 m c) (cloud2 m c) b (rowOf t r) (colOf t n) := by
  refine (pay3_apply (iblk m c 0 t) (iblk m c 1 t) b r n).trans ?_
  unfold sqDist
  rw [iblk0_apply m c t b 0 r, iblk0_apply m c t b 1 r, iblk0_apply m c t b 2 r, iblk1_apply m c t b 0 n, iblk1_apply m c t b 1 n, iblk1_apply m c t b 2 n]
  rfl

/-- The points of the second cloud in column tile `t % 8` are the `colOf t n`. -/
theorem forall_col (t : Fin cfg0.N) (P : Fin 4096 → Prop) :
    (∀ n : Fin 512, P (colOf t n)) ↔ ∀ j : Fin 4096, j.val / 512 = t.val % 8 → P j := by
  constructor
  · intro h j hj
    have e : colOf t ⟨j.val % 512, Nat.mod_lt _ (by decide)⟩ = j := Fin.ext (by show 512 * (t.val % 8) + j.val % 512 = j.val; omega)
    exact e ▸ h _
  · intro h n
    exact h _ (by show (512 * (t.val % 8) + n.val) / 512 = t.val % 8; have := n.isLt; omega)

/-- The tile's row minima: at (b, r) the minimum over the points of the second cloud in this column tile. -/
theorem tile_row (t : Fin cfg0.N) (b : Fin 16) (r : Fin 256) (c' : EReal) :
    c' ≤ k0_pay4 (F := Ideal) (iblk m c 0 t) (iblk m c 1 t) (ix2 b r)
      ↔ ∀ j : Fin 4096, j.val / 512 = t.val % 8 → c' ≤ sqDist (cloud1 m c) (cloud2 m c) b (rowOf t r) j := by
  rw [pay4_isMin (iblk m c 0 t) (iblk m c 1 t) b r c', ← forall_col t]
  exact forall_congr' fun n => by beta_reduce; rw [tile_dist]

/-- THE RUNNING ROW MINIMUM. After position `t` the row-minimum buffer holds, at (b, r), the minimum of the squared
    distances from row `r`'s point to the points of the second cloud in column tiles `0 … t % 8`. -/
theorem rowAt_inv (t : Fin cfg0.N) : ∀ (b : Fin 16) (r : Fin 256) (c' : EReal),
    c' ≤ rowAt m c t.val t.isLt (ix2 b r)
      ↔ ∀ j : Fin 4096, j.val / 512 ≤ t.val % 8 → c' ≤ sqDist (cloud1 m c) (cloud2 m c) b (rowOf t r) j := by
  obtain ⟨n, hn⟩ := t
  induction n with
  | zero =>
    intro b r c'
    rw [rowAt_first m c ⟨0, hn⟩ rfl, tile_row]
    exact forall_congr' fun j => by
      constructor
      · intro h hj; exact h (by show j.val / 512 = 0 % 8; have : j.val / 512 ≤ 0 % 8 := hj; omega)
      · intro h hj; exact h (by show j.val / 512 ≤ 0 % 8; have : j.val / 512 = 0 % 8 := hj; omega)
  | succ k ih =>
    intro b r c'
    have hk : k < cfg0.N := Nat.lt_of_succ_lt hn
    by_cases h0 : (k + 1) % 8 = 0
    · rw [rowAt_first m c ⟨k + 1, hn⟩ h0, tile_row]
      exact forall_congr' fun j => by
        constructor
        · intro h hj; exact h (by show j.val / 512 = (k + 1) % 8; have : j.val / 512 ≤ (k + 1) % 8 := hj; omega)
        · intro h hj; exact h (by show j.val / 512 ≤ (k + 1) % 8; have : j.val / 512 = (k + 1) % 8 := hj; omega)
    · rw [rowAt_later m c ⟨k + 1, hn⟩ h0]
      refine ((congrArg (c' ≤ ·) (pay1_apply _ _ (ix2 b r))).to_iff.trans le_min_iff).trans ?_
      have e1 := ih hk b r c'
      have hrow : rowOf ⟨k, hk⟩ r = rowOf ⟨k + 1, hn⟩ r := Fin.ext (by show 256 * (k / 8) + r.val = 256 * ((k + 1) / 8) + r.val; omega)
      rw [hrow] at e1
      have e2 := tile_row m c ⟨k + 1, hn⟩ b r c'
      constructor
      · rintro ⟨ha, hb⟩ j hj
        have hj' : j.val / 512 ≤ (k + 1) % 8 := hj
        by_cases hlt : j.val / 512 = (k + 1) % 8
        · exact e2.mp hb j hlt
        · exact e1.mp ha j (by show j.val / 512 ≤ k % 8; omega)
      · intro h
        refine ⟨e1.mpr fun j hj => h j ?_, e2.mpr fun j hj => h j ?_⟩
        · have : j.val / 512 ≤ k % 8 := hj
          show j.val / 512 ≤ (k + 1) % 8; omega
        · have : j.val / 512 = (k + 1) % 8 := hj
          show j.val / 512 ≤ (k + 1) % 8; omega

/-- After the eighth column tile: the minimum over the whole second cloud. -/
theorem rowAt_last (t : Fin cfg0.N) (h7 : t.val % 8 = 7) (b : Fin 16) (r : Fin 256) :
    IsMinOf (rowAt m c t.val t.isLt (ix2 b r)) (fun j : Fin 4096 => sqDist (cloud1 m c) (cloud2 m c) b (rowOf t r) j) := fun c' => by
  rw [rowAt_inv m c t b r c']
  exact forall_congr' fun j => ⟨fun h => h (by have := j.isLt; omega), fun h _ => h⟩

/-- The column-minimum buffer after position `t`: at (0, b, n) the minimum over the row tile's 256 points. -/
theorem colAt_isMin (t : Fin cfg0.N) (b : Fin 16) (n : Fin 512) :
    IsMinOf (colAt m c t (ix3 0 b n)) (fun r : Fin 256 => sqDist (cloud1 m c) (cloud2 m c) b (rowOf t r) (colOf t n)) := fun c' => by
  unfold colAt
  rw [show k0_pay2 (F := Ideal) (k0_pay5 (iblk m c 0 t) (iblk m c 1 t)) (ix3 0 b n) = k0_pay5 (F := Ideal) (iblk m c 0 t) (iblk m c 1 t) (ix2 b n) from
    pay2_apply _ b n, pay5_isMin (iblk m c 0 t) (iblk m c 1 t) b n c']
  exact forall_congr' fun r => by beta_reduce; rw [tile_dist]

end Cert.KernelIdeal.Val

end
-- ==== Proof.KCover.lean ====
/-
  Where the two output windows' blocks sit in their arrays, and that the blocks written back cover the arrays.
  The grid is 16 x 8: point `t` is row tile `t / 8` and column tile `t % 8`. The first output array is 16 x 4096 in
  blocks of 16 x 256, the block of point `t` at block index `(0, t / 8)`, written back at the points with `t % 8 = 7`;
  the second is 16 x 16 x 4096 in blocks of 1 x 16 x 512, the block of point `t` at block index `(t / 8, 0, t % 8)`,
  written back at every point. An element of a block sits in the array, on each axis, at the block index times the
  block's size plus its own coordinate; an index of the array lies in a block iff on each axis it lies in the block's
  range. Every index of the first array lies in the block of the point `8 * (i₁ / 256) + 7`, every index of the second
  in the block of the point `8 * i₀ + i₂ / 512`.
-/
import proofs.«109425_j1408749273445_2_alg».proof.Proof.Gen.KernelIdeal.Frame
import Idealize.ShloMosaic.Lib.Pipeline.Value
import Idealize.ShloMosaic.Lib.ValueIdx

set_option maxRecDepth 16384

noncomputable section

namespace Cert.KernelIdeal.Cover

open Cert.KernelIdeal Cert.KernelIdeal.Gen Idealize.ShloMosaic Idealize.ShloMosaic.ValueIdx
open Idealize.ShloMosaic.TcCoe Idealize.SL.Sem

/-- The first output window's block index at point `t` is `(0, t / 8)`: checked at each of the 128 points. -/
theorem idx2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)

/-- The second output window's block index at point `t` is `(t / 8, 0, t % 8)`: checked at each of the 128 points. -/
theorem idx3 : ∀ t : Fin cfg0.N, win0_3.index t (0 : Fin 3) = t.val / 8 ∧ win0_3.index t (1 : Fin 3) = 0
    ∧ win0_3.index t (2 : Fin 3) = t.val % 8 :=
  (by decide +kernel : ∀ t : Fin grid0.N, win0_3.index t (0 : Fin 3) = t.val / 8 ∧ win0_3.index t (1 : Fin 3) = 0
    ∧ win0_3.index t (2 : Fin 3) = t.val % 8)

/-- Element `y` of the first output window's block at point `t` sits in the array at row `y₀` and column
    `256 * (t / 8) + y₁`. -/
theorem emb2 (t : Fin cfg0.N) (y : ((cfg0.win 2).xblock (cfg0.grid.coords t)).Idx) :
    ((cfg0.win 2).blk t).view.emb y
      = ix2 (n0 := 16) (n1 := 4096) (y 0) ⟨256 * (t.val / 8) + (y 1).val, by
          have h1 : (y 1).val < 256 := (y 1).isLt
          have ht : t.val < 128 := t.isLt
          omega⟩ := by
  obtain ⟨e0, e1⟩ := idx2 t
  funext a; apply Fin.ext
  match a with
  | ⟨0, _⟩ =>
    show win0_2.index t (0 : Fin 2) * 16 + 1 * (y 0).val = (y 0).val
    omega
  | ⟨1, _⟩ =>
    show win0_2.index t (1 : Fin 2) * 256 + 1 * (y 1).val = 256 * (t.val / 8) + (y 1).val
    omega

/-- Element `y` of the second output window's block at point `t` sits in the array at `(t / 8, y₁, 512 * (t % 8) + y₂)`
    (the block's leading axis has size one, so `y₀ = 0`). -/
theorem emb3 (t : Fin cfg0.N) (y : ((cfg0.win 3).xblock (cfg0.grid.coords t)).Idx) :
    ((cfg0.win 3).blk t).view.emb y
      = ix3 (n0 := 16) (n1 := 16) (n2 := 4096) ⟨t.val / 8, by have ht : t.val < 128 := t.isLt; omega⟩ (y 1)
          ⟨512 * (t.val % 8) + (y 2).val, by
            have h2 : (y 2).val < 512 := (y 2).isLt
            omega⟩ := by
  obtain ⟨e0, e1, e2⟩ := idx3 t
  have h0 : (y 0).val < 1 := (y 0).isLt
  funext a; apply Fin.ext
  match a with
  | ⟨0, _⟩ =>
    show win0_3.index t (0 : Fin 3) * 1 + 1 * (y 0).val = t.val / 8
    omega
  | ⟨1, _⟩ =>
    show win0_3.index t (1 : Fin 3) * 16 + 1 * (y 1).val = (y 1).val
    omega
  | ⟨2, _⟩ =>
    show win0_3.index t (2 : Fin 3) * 512 + 1 * (y 2).val = 512 * (t.val % 8) + (y 2).val
    omega

/-- An index of the first output array lies in point `t`'s block iff on each axis it lies in the block's range. -/
theorem mem_blk2 (t : Fin cfg0.N) (i : S16x4096.Idx) :
    i ∈ ((cfg0.win 2).blk t).view.set ↔ ∀ a : Fin 2, win0_2.index t a * S16x256.size a ≤ (i a).val
      ∧ (i a).val < win0_2.index t a * S16x256.size a + S16x256.size a := by
  show i ∈ ((View.whole main_v2_0).slice (win0_2.rect t)).set ↔ _
  rw [View.set_slice_whole, Rect.mem_set_unit]
  exact Iff.rfl

/-- An index of the second output array lies in point `t`'s block iff on each axis it lies in the block's range. -/
theorem mem_blk3 (t : Fin cfg0.N) (i : S16x16x4096.Idx) :
    i ∈ ((cfg0.win 3).blk t).view.set ↔ ∀ a : Fin 3, win0_3.index t a * S1x16x512.size a ≤ (i a).val
      ∧ (i a).val < win0_3.index t a * S1x16x512.size a + S1x16x512.size a := by
  show i ∈ ((View.whole main_v2_1).slice (win0_3.rect t)).set ↔ _
  rw [View.set_slice_whole, Rect.mem_set_unit]
  exact Iff.rfl

/-- Every index `i` of the first output array lies in a block that is written back: that of the point
    `8 * (i₁ / 256) + 7`, the last column tile of row tile `i₁ / 256`. -/
theorem cover2 (i : S16x4096.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  obtain ⟨t, htv⟩ : ∃ t : Fin cfg0.N, t.val = 8 * ((i 1).val / 256) + 7 :=
    ⟨⟨8 * ((i 1).val / 256) + 7, by show 8 * ((i 1).val / 256) + 7 < 128; omega⟩, rfl⟩
  obtain ⟨e0, e1⟩ := idx2 t
  refine ⟨t, (flush0_2 t).mpr (by omega), ?_⟩
  rw [mem_blk2]
  intro a
  match a with
  | ⟨0, _⟩ =>
    show win0_2.index t (0 : Fin 2) * 16 ≤ (i 0).val ∧ (i 0).val < win0_2.index t (0 : Fin 2) * 16 + 16
    omega
  | ⟨1, _⟩ =>
    show win0_2.index t (1 : Fin 2) * 256 ≤ (i 1).val ∧ (i 1).val < win0_2.index t (1 : Fin 2) * 256 + 256
    omega

/-- Every index `i` of the second output array lies in a block that is written back: that of the point
    `8 * i₀ + i₂ / 512`, row tile `i₀` and column tile `i₂ / 512`. -/
theorem cover3 (i : S16x16x4096.Idx) :
    ∃ t : Fin cfg0.N, (cfg0.win 3).flush t = true ∧ i ∈ ((cfg0.win 3).blk t).view.set := by
  have hi0 : (i 0).val < 16 := (i 0).isLt
  have hi1 : (i 1).val < 16 := (i 1).isLt
  have hi2 : (i 2).val < 4096 := (i 2).isLt
  obtain ⟨t, htv⟩ : ∃ t : Fin cfg0.N, t.val = 8 * (i 0).val + (i 2).val / 512 :=
    ⟨⟨8 * (i 0).val + (i 2).val / 512, by show 8 * (i 0).val + (i 2).val / 512 < 128; omega⟩, rfl⟩
  obtain ⟨e0, e1, e2⟩ := idx3 t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 16 ≤ (i 1).val ∧ (i 1).val < win0_3.index t (1 : Fin 3) * 16 + 16
    omega
  | ⟨2, _⟩ =>
    show win0_3.index t (2 : Fin 3) * 512 ≤ (i 2).val ∧ (i 2).val < win0_3.index t (2 : Fin 3) * 512 + 512
    omega

/-- The same cover, with the index typed through the window's array on a core. -/
theorem cover2_at (c : Dev nD) : ∀ i : ((cfg0.win 2).arr.view.loc (c.tc : Thread nD τ)).2.ty.Idx,
    ∃ t : Fin cfg0.N, (cfg0.win 2).flush t = true ∧ i ∈ ((cfg0.win 2).blk t).view.set := cover2

/-- The same cover, with the index typed through the window's array on a core. -/
theorem cover3_at (c : Dev nD) : ∀ i : ((cfg0.win 3).arr.view.loc (c.tc : Thread nD τ)).2.ty.Idx,
    ∃ t : Fin cfg0.N, (cfg0.win 3).flush t = true ∧ i ∈ ((cfg0.win 3).blk t).view.set := cover3

end Cert.KernelIdeal.Cover

end
-- ==== Proof.KFin.lean ====
/-
  The fused distance kernel's two output arrays after the run, at the ideal instance. Every element of either array
  lies in a block that some grid position writes back (for the row minima: the position after the eighth column tile
  of its row tile), and what a position writes back is what its buffer holds after the body there; so each element
  ends at the minimum that buffer entry holds.
-/
import proofs.«109425_j1408749273445_2_alg».proof.Proof.KVal
import proofs.«109425_j1408749273445_2_alg».proof.Proof.KCover

set_option maxRecDepth 16384

noncomputable section

namespace Cert.KernelIdeal.Val

open Cert.KernelIdeal Cert.KernelIdeal.Gen Cert.KernelIdeal.Body Cert.KernelIdeal.Pay Cert.KernelIdeal.Blocks Cert.Dist
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

-- The buffers' contents are compared by name from here on, never opened.
attribute [local irreducible] Cert.KernelIdeal.Body.colAt Cert.KernelIdeal.Body.rowAt

/-! ## The two output arrays after the run -/

/-- The running row minimum after the eighth column tile, at any index of the block. -/
theorem rowAt_last' (t : Fin cfg0.N) (h7 : t.val % 8 = 7) (y : S16x256.Idx) :
    IsMinOf (rowAt m c t.val t.isLt y) (fun j : Fin 4096 => sqDist (cloud1 m c) (cloud2 m c) (y 0) (rowOf t (y 1)) j) := by
  have h := rowAt_last m c t h7 (y 0) (y 1)
  rw [eq_ix2 y]
  exact h

/-- The column minima at any index of the block (its leading coordinate is zero: the axis has one entry). -/
theorem colAt_isMin' (t : Fin cfg0.N) (y : S1x16x512.Idx) :
    IsMinOf (colAt m c t y) (fun r : Fin 256 => sqDist (cloud1 m c) (cloud2 m c) (y 1) (rowOf t r) (colOf t (y 2))) := by
  have h := colAt_isMin m c t (y 1) (y 2)
  have e : y = ix3 (0 : Fin 1) (y 1) (y 2) := by
    funext a; match a with | ⟨0, _⟩ => exact Subsingleton.elim (α := Fin 1) _ _ | ⟨1, _⟩ => rfl | ⟨2, _⟩ => rfl
  rw [e]
  exact h

/-- What a write-back of the row-minimum buffer writes at position `t`: the buffer's contents after the body there. -/
theorem flushed2_eq (t : Fin cfg0.N) (y : ((cfg0.win 2).xblock (cfg0.grid.coords t)).Idx) :
    (dats m 0 c).flushed 2 t y = rowAt m c t.val t.isLt ((cfg0.win 2).xinj (cfg0.grid.coords t) y) := by
  unfold Dat.flushed
  rw [after2]

/-- What a write-back of the column-minimum buffer writes at position `t`. -/
theorem flushed3_eq (t : Fin cfg0.N) (y : ((cfg0.win 3).xblock (cfg0.grid.coords t)).Idx) :
    (dats m 0 c).flushed 3 t y = colAt m c t ((cfg0.win 3).xinj (cfg0.grid.coords t) y) := by
  unfold Dat.flushed
  rw [after3]

/-- THE ROW-MINIMUM ARRAY: entry (b, i) ends at the minimum over the second cloud of the squared distance from point
    `i` of the first. Every entry lies in the block its row tile writes back after the eighth column tile. -/
theorem final_row (i : S16x4096.Idx) :
    IsMinOf ((dats m 0 c).arrAt 2 cfg0.N i) (fun j : Fin 4096 => sqDist (cloud1 m c) (cloud2 m c) (i 0) (i 1) j) :=
  (dats m 0 c).arrAt_forall_of_cover 2
    (fun (i : S16x4096.Idx) (v : EReal) => IsMinOf v (fun j : Fin 4096 => sqDist (cloud1 m c) (cloud2 m c) (i 0) (i 1) j))
    (fun t hf y => by
      have h7 : t.val % 8 = 7 := (flush0_2 t).mp hf
      beta_reduce
      rw [Cover.emb2 t y]
      show IsMinOf ((dats m 0 c).flushed 2 t y) _
      rw [flushed2_eq m c t y]
      exact rowAt_last' m c t h7 ((cfg0.win 2).xinj (cfg0.grid.coords t) y))
    (Cover.cover2_at c) i

/-- The write-back's element type and the array's are one type (32-bit floats): changing between them changes nothing. -/
theorem cast3 (t : Fin cfg0.N) (x : Elt Ideal (cfg0.win 3).elt) :
    _root_.cast (congrArg (Elt Ideal) (Eq.symm (View.elt_eq ((cfg0.win 3).blk t).view))) x = x := rfl

/-- Point `r` of row tile `s` of the first cloud. -/
def rowPt (s : Fin 16) (r : Fin 256) : Fin 4096 := ⟨256 * s.val + r.val, by have := s.isLt; have := r.isLt; omega⟩

/-- THE COLUMN-MINIMUM ARRAY: entry (s, b, j) ends at the minimum over the 256 points of row tile `s` of the squared
    distance to point `j` of the second cloud. Every entry lies in the block its position writes back. -/
theorem final_col (i : S16x16x4096.Idx) :
    IsMinOf ((dats m 0 c).arrAt 3 cfg0.N i)
      (fun r : Fin 256 => sqDist (cloud1 m c) (cloud2 m c) (i 1) (rowPt (i 0) r) (i 2)) :=
  (dats m 0 c).arrAt_forall_of_cover 3
    (fun (i : S16x16x4096.Idx) (v : EReal) => IsMinOf v
      (fun r : Fin 256 => sqDist (cloud1 m c) (cloud2 m c) (i 1) (rowPt (i 0) r) (i 2)))
    (fun t hf y => by
      beta_reduce
      rw [Cover.emb3 t y]
      rw [cast3 t]
      rw [flushed3_eq m c t y]
      exact colAt_isMin' m c t ((cfg0.win 3).xinj (cfg0.grid.coords t) y))
    (Cover.cover3_at c) i

end Cert.KernelIdeal.Val

end
-- ==== Proof.KTail.lean ====
/-
  The host operations after the region, as one function of the two arrays of minima.

  After the region the program holds, for every entry and every point of the first cloud, the minimum squared distance to
  the second cloud (the row minima `R`), and for every entry and every point of the second cloud the minimum over the
  row tiles of the per-tile column minima; the first host operation takes the minimum over the row tiles (the column
  minima `C`). The remaining operations form `tail R C`: the mean over the 4096 points of each array of minima, half of
  each mean added per entry, the mean of that over the 16 entries, times 100. The reference ends with the same
  operations applied to its own row and column minima.
-/
import proofs.«109425_j1408749273445_2_alg».proof.Proof.Gen.KernelIdeal.Frame
import proofs.«109425_j1408749273445_2_alg».proof.Proof.Gen.ReferenceIdeal.Read
import proofs.«109425_j1408749273445_2_alg».proof.Proof.Dist
import Idealize.ShloMosaic.Lib.ValueIdx
import Idealize.ShloMosaic.PureOps.Ideal.Laws
import Idealize.ShloMosaic.Lib.Tactic

noncomputable section

namespace Cert.KernelIdeal.Tail

open Cert.KernelIdeal Cert.KernelIdeal.Gen Idealize.ShloMosaic Idealize.ShloMosaic.TcCoe Idealize.ShloMosaic.ValueIdx
open Idealize.SL.Sem

/-- The last value of the program as a function of the row minima `R` and the column minima `C`: per entry half the mean
    of `C` plus half the mean of `R`, then the mean over the entries, times 100. -/
def tail (R C : (⟨S16x4096, .f32⟩ : BufTy).Contents (Elt Ideal)) : (⟨S_, .f32⟩ : BufTy).Contents (Elt Ideal) :=
  mulf
    (Host.divf
      (Host.reduceAdd
        (addf
          (mulf (broadcastInDim S16 ![] bcast_S_S16 (constant (F := Ideal) S_ .f32 0x3F000000#32))
            (Host.divf (Host.reduceAdd C (constant (F := Ideal) S_ .f32 0x00000000#32) reducesTo_S16x4096_S16_d1 h_S_)
              (broadcastInDim S16 ![] bcast_S_S16 (constant (F := Ideal) S_ .f32 0x45800000#32))))
          (mulf (broadcastInDim S16 ![] bcast_S_S16 (constant (F := Ideal) S_ .f32 0x3F000000#32))
            (Host.divf (Host.reduceAdd R (constant (F := Ideal) S_ .f32 0x00000000#32) reducesTo_S16x4096_S16_d1 h_S_)
              (broadcastInDim S16 ![] bcast_S_S16 (constant (F := Ideal) S_ .f32 0x45800000#32)))))
        (constant (F := Ideal) S_ .f32 0x00000000#32) reducesTo_S16_S_d0 h_S_)
      (constant (F := Ideal) S_ .f32 0x41800000#32))
    (constant (F := Ideal) S_ .f32 0x42C80000#32)

/-- The host operations after the region, run from any contents of the buffers: the last value is `tail` of the
    array of row minima and of the minimum over the row tiles of the array of per-tile column minima. -/
theorem after_tail (W : Valuation τ sig (Elt Ideal)) :
    StableHlo.after hostOps1 W (Proc.devRef .tc main_v17)
      = tail (W (Proc.devRef .tc main_v2_0))
          (Host.reduce (FloatOps.minimumf (F := Ideal) (φ := .f32)) (W (Proc.devRef .tc main_v2_1))
            (constant (F := Ideal) S_ .f32 0x7F800000#32) reducesTo_S16x16x4096_S16x4096_d0 h_S_) := by
  after_results
  rfl

/-- The program's last value after the region: `tail` of the array of row minima as the region leaves it and of the
    minimum over the row tiles of the array of per-tile column minima as the region leaves it. -/
theorem tail_eq (m : (ℓ : Loc nD τ sig) → Buf (Elt Ideal) ℓ)
    (dats : (p : Fin 1) → (c : Dev nD) → Pipeline.Dat τ (Elt Ideal) Unit ℕ (UR sig nD τ) ℕ (cfgs p) c) (c : Dev nD) :
    Pipeline.afterTail₀ cfgs dats 0 (V0 m) [hostOps1] c main_v17
      = tail ((dats 0 c).arrAt 2 cfg0.N)
          (Host.reduce (FloatOps.minimumf (F := Ideal) (φ := .f32)) ((dats 0 c).arrAt 3 cfg0.N)
            (constant (F := Ideal) S_ .f32 0x7F800000#32) reducesTo_S16x16x4096_S16x4096_d0 h_S_) := by
  unfold Pipeline.afterTail₀
  refine (after_tail _).trans ?_
  have h2 := Pipeline.withArrays_arr spec0 launch0.win.arr_inj c (V0 m c) (fun w => (dats 0 c).arrAt w cfg0.N) 2
  have h3 := Pipeline.withArrays_arr spec0 launch0.win.arr_inj c (V0 m c) (fun w => (dats 0 c).arrAt w cfg0.N) 3
  exact congrArg₂ tail h2
    (congrArg (fun P => Host.reduce (FloatOps.minimumf (F := Ideal) (φ := .f32)) P
      (constant (F := Ideal) S_ .f32 0x7F800000#32) reducesTo_S16x16x4096_S16x4096_d0 h_S_) h3)

/-- The reference's last value is `tail` of its own row minima and column minima: it ends with the same operations, in
    the same order. -/
theorem ref_tail (x0 x1 : (⟨Cert.ReferenceIdeal.S16x4096x3, .f32⟩ : BufTy).Contents (Elt Ideal)) :
    Cert.ReferenceIdeal.Read.val_main_v28 (F := Ideal) x0 x1
      = tail (Cert.ReferenceIdeal.Read.val_main_v17 (F := Ideal) x0 x1)
          (Cert.ReferenceIdeal.Read.val_main_v13 (F := Ideal) x0 x1) := by
  unfold Cert.ReferenceIdeal.Read.val_main_v28
    Cert.ReferenceIdeal.Read.val_main_v27
    Cert.ReferenceIdeal.Read.val_main_v26
    Cert.ReferenceIdeal.Read.val_main_v25
    Cert.ReferenceIdeal.Read.val_main_v22
    Cert.ReferenceIdeal.Read.val_main_v24
    Cert.ReferenceIdeal.Read.val_main_v21
    Cert.ReferenceIdeal.Read.val_main_v23
    Cert.ReferenceIdeal.Read.val_main_v16
    Cert.ReferenceIdeal.Read.val_main_v20
    Cert.ReferenceIdeal.Read.val_main_v15
    Cert.ReferenceIdeal.Read.val_main_v19
    Cert.ReferenceIdeal.Read.val_main_v14
    Cert.ReferenceIdeal.Read.val_main_v18
    Cert.ReferenceIdeal.Read.val_main_cst_3
    Cert.ReferenceIdeal.Read.val_main_cst_4
    Cert.ReferenceIdeal.Read.val_main_cst_6
    Cert.ReferenceIdeal.Read.val_main_cst_7
    Cert.ReferenceIdeal.Read.val_main_cst_8
    Cert.ReferenceIdeal.Read.val_main_cst_9
    Cert.ReferenceIdeal.Read.val_main_cst_10
    Cert.ReferenceIdeal.Read.val_main_cst_11
    Cert.ReferenceIdeal.Read.val_main_cst_12
    tail
  generalize Cert.ReferenceIdeal.Read.val_main_v17 (F := Ideal) x0 x1 = R
  generalize Cert.ReferenceIdeal.Read.val_main_v13 (F := Ideal) x0 x1 = C
  rfl

/-- Over the result index `(b, j)` of the reduction along the first axis, the source index with coordinate `it` inserted
    is `(it, b, j)`. -/
theorem lift0 (h : S16x16x4096.Reduces [0] S16x4096) (b : Fin 16) (j : Fin 4096) (it : Fin 16) :
    h.lift (ix2 b j) it = ix3 it b j := by
  funext a
  apply Fin.ext
  match a with
  | ⟨0, _⟩ => rfl
  | ⟨1, _⟩ => rfl
  | ⟨2, _⟩ => rfl

/-- The minimum over the row tiles of an array indexed by (row tile, entry, point) is, at `(b, j)`, the minimum of the
    family `it ↦ P (it, b, j)`. -/
theorem colmin_isMin (P : (⟨S16x16x4096, .f32⟩ : BufTy).Contents (Elt Ideal)) (b : Fin 16) (j : Fin 4096) :
    Cert.Dist.IsMinOf
      (Host.reduce (FloatOps.minimumf (F := Ideal) (φ := .f32)) P (constant (F := Ideal) S_ .f32 0x7F800000#32)
        reducesTo_S16x16x4096_S16x4096_d0 h_S_ (ix2 b j))
      (fun it : Fin 16 => P (ix3 it b j)) := by
  have hR : S16x16x4096.Reduces [0] S16x4096 := by decide
  have htop : constant (F := Ideal) S_ .f32 0x7F800000#32 (Shape.Idx.first h_S_) = (⊤ : EReal) := by
    rw [constant_apply]; simp [Ideal.ofBits, Ideal.ieee]
  have hf : (P ∘ hR.lift (ix2 b j)) = fun it : Fin 16 => P (ix3 it b j) := by
    funext it
    exact congrArg P (lift0 hR b j it)
  have hred : Host.reduce (FloatOps.minimumf (F := Ideal) (φ := .f32)) P (constant (F := Ideal) S_ .f32 0x7F800000#32)
        reducesTo_S16x16x4096_S16x4096_d0 h_S_ (ix2 b j)
      = (Finset.univ : Finset (Fin 16)).fold min (⊤ : EReal) (fun it : Fin 16 => P (ix3 it b j)) := by
    refine (Host.reduce_eq_fold_single (FloatOps.minimumf (F := Ideal) (φ := .f32)) P _
      reducesTo_S16x16x4096_S16x4096_d0 hR h_S_ (ix2 b j)).trans ?_
    rw [htop, hf]
    rfl
  rw [hred]
  exact Cert.Dist.isMinOf_fold _

end Cert.KernelIdeal.Tail

end
-- ==== Proof.RefDist.lean ====
/-
  The reference's pairwise squared distances and their minima. For two clouds of points of R^3 whose coordinates
  are real numbers, the reference forms, for the points `p` (point `i` of the first cloud) and `q` (point `j` of the
  second), the value `(0 + |p|²) + (0 + |q|²) - 2 (p · q)`, where `|p|²` and `p · q` are sums over the three
  coordinates. Over the reals this is `|p - q|²`, the sum of the three squared coordinate differences. The row minimum
  (over `j`) and the column minimum (over `i`) are folds of `min` from the top element over the 4096 points, hence
  minima of the family of squared distances.
-/
import proofs.«109425_j1408749273445_2_alg».proof.Proof.Gen.ReferenceIdeal.Read
import proofs.«109425_j1408749273445_2_alg».proof.Proof.Dist

noncomputable section

namespace Cert.RefDist

open Idealize.ShloMosaic Idealize.ShloMosaic.ValueIdx Cert.ReferenceIdeal Cert.ReferenceIdeal.Gen Cert.ReferenceIdeal.Read Cert.Dist

/-- The word `0x40000000` denotes the real number two: `2^23 · 2^(128 - 127 - 23)`. -/
theorem ofBits_two_f32 : Ideal.ofBits .f32 0x40000000#32 = ((2 : ℝ) : EReal) := by
  simp [Ideal.ofBits, Ideal.ieee]
  exact_mod_cast (by norm_num : (8388608 : ℝ) * ((2 : ℝ) ^ 22)⁻¹ = 2)

/-- The word `0x7F800000` denotes the top element. -/
theorem ofBits_inf_f32 : Ideal.ofBits .f32 0x7F800000#32 = ⊤ := by simp [Ideal.ofBits, Ideal.ieee]

/-- The reference's distance entry at `(b, i, j)`, read coordinate by coordinate: the two squared norms, each
    accumulated from zero, minus twice the inner product. No finiteness is needed for this reading. -/
theorem ref_dist_raw (a1 a2 : Cloud.Idx → EReal) (b : Fin 16) (i j : Fin 4096) :
    val_main_v12 (F := Ideal) a1 a2 (ix3 b i j)
      = (0 + (a1 (ix3 b i 0) * a1 (ix3 b i 0) + a1 (ix3 b i 1) * a1 (ix3 b i 1) + a1 (ix3 b i 2) * a1 (ix3 b i 2))
          + (0 + (a2 (ix3 b j 0) * a2 (ix3 b j 0) + a2 (ix3 b j 1) * a2 (ix3 b j 1) + a2 (ix3 b j 2) * a2 (ix3 b j 2))))
        - ((2 : ℝ) : EReal) * (a1 (ix3 b i 0) * a2 (ix3 b j 0) + a1 (ix3 b i 1) * a2 (ix3 b j 1) + a1 (ix3 b i 2) * a2 (ix3 b j 2)) := by
  rw [val_main_v12_apply, val_main_v9_apply, val_main_v7_apply, val_main_v5_apply, val_main_v1_apply,
    val_main_v8_apply, val_main_v6_apply, val_main_v3_apply, val_main_v11_apply, val_main_v10_apply, val_main_v4_apply]
  -- the composed index maps: the squared norms read point `i` (resp. `j`) at coordinate `k`, and so do the
  -- two factors of the inner product
  have e1 : ∀ k : Fin 3, idx_main_v1 (idx_main_v5 (idx_main_v7 (ix3 b i j))) k = ix3 b i k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b i j))) k = ix3 b j k := fun k =>
    funext fun a => Fin.ext (by match a with | ⟨0, _⟩ => rfl | ⟨1, _⟩ => rfl | ⟨2, _⟩ => rfl)
  have e3 : ∀ k : Fin 3, lidx_main_v4 (ix3 b i j) k = ix3 b i k := fun k =>
    funext fun a => Fin.ext (by match a with | ⟨0, _⟩ => rfl | ⟨1, _⟩ => rfl | ⟨2, _⟩ => rfl)
  have e4 : ∀ k : Fin 3, ridx_main_v4 (ix3 b i j) k = ix3 b j k := fun k =>
    funext fun a => Fin.ext (by match a with | ⟨0, _⟩ => rfl | ⟨1, _⟩ => rfl | ⟨2, _⟩ => rfl)
  simp only [e1, e2, e3, e4, val_main_v0_apply, val_main_v2_apply, val_main_cst_apply, val_main_cst_0_apply,
    val_main_cst_1_apply, Ideal.ofBits_def, Ideal.ofBits_zero_f32, ofBits_two_f32, Ideal.addf_def, Ideal.subf_def,
    Ideal.mulf_def, Fin.sum_univ_three]

/-- Over the reals: `|p|² + |q|² - 2 (p · q) = |p - q|²`, with the accumulations from zero kept as written. -/
theorem expand_real (p0 p1 p2 q0 q1 q2 : ℝ) :
    (0 + (p0 * p0 + p1 * p1 + p2 * p2) + (0 + (q0 * q0 + q1 * q1 + q2 * q2))) - 2 * (p0 * q0 + p1 * q1 + p2 * q2)
      = 0 + (p0 - q0) * (p0 - q0) + (p1 - q1) * (p1 - q1) + (p2 - q2) * (p2 - q2) := by ring

/-- The same identity between extended reals that are images of reals: the embedding of the reals preserves
    zero, sums, differences and products. -/
theorem expand_ereal (p0 p1 p2 q0 q1 q2 : ℝ) :
    (0 + ((p0 : EReal) * p0 + p1 * p1 + p2 * p2) + (0 + ((q0 : EReal) * q0 + q1 * q1 + q2 * q2)))
        - ((2 : ℝ) : EReal) * ((p0 : EReal) * q0 + p1 * q1 + p2 * q2)
      = 0 + Cert.Dist.sq p0 q0 + Cert.Dist.sq p1 q1 + Cert.Dist.sq p2 q2 := by
  unfold Cert.Dist.sq
  rw [← EReal.coe_zero]
  simp only [← EReal.coe_mul, ← EReal.coe_add, ← EReal.coe_sub]
  exact congrArg _ (expand_real p0 p1 p2 q0 q1 q2)

/-- For clouds with real coordinates the reference's distance entry at `(b, i, j)` is the squared distance from
    point `i` of the first cloud to point `j` of the second. -/
theorem ref_dist (a1 a2 : Cloud.Idx → EReal) (h1 : ∀ x, a1 x ≠ ⊤ ∧ a1 x ≠ ⊥) (h2 : ∀ x, a2 x ≠ ⊤ ∧ a2 x ≠ ⊥)
    (b : Fin 16) (i j : Fin 4096) :
    val_main_v12 (F := Ideal) a1 a2 (ix3 b i j) = sqDist a1 a2 b i j := by
  rw [ref_dist_raw]
  unfold sqDist
  obtain ⟨p0, hp0⟩ : ∃ r : ℝ, (r : EReal) = a1 (ix3 b i 0) := ⟨_, EReal.coe_toReal (h1 _).1 (h1 _).2⟩
  obtain ⟨p1, hp1⟩ : ∃ r : ℝ, (r : EReal) = a1 (ix3 b i 1) := ⟨_, EReal.coe_toReal (h1 _).1 (h1 _).2⟩
  obtain ⟨p2, hp2⟩ : ∃ r : ℝ, (r : EReal) = a1 (ix3 b i 2) := ⟨_, EReal.coe_toReal (h1 _).1 (h1 _).2⟩
  obtain ⟨q0, hq0⟩ : ∃ r : ℝ, (r : EReal) = a2 (ix3 b j 0) := ⟨_, EReal.coe_toReal (h2 _).1 (h2 _).2⟩
  obtain ⟨q1, hq1⟩ : ∃ r : ℝ, (r : EReal) = a2 (ix3 b j 1) := ⟨_, EReal.coe_toReal (h2 _).1 (h2 _).2⟩
  obtain ⟨q2, hq2⟩ : ∃ r : ℝ, (r : EReal) = a2 (ix3 b j 2) := ⟨_, EReal.coe_toReal (h2 _).1 (h2 _).2⟩
  rw [← hp0, ← hp1, ← hp2, ← hq0, ← hq1, ← hq2]
  exact expand_ereal p0 p1 p2 q0 q1 q2

/-- The reference's row minimum at `(b, i)` is the minimum over `j` of the squared distances from point `i` of the
    first cloud to the points of the second: a fold of `min` from the top element over the last axis. -/
theorem ref_rowmin (a1 a2 : Cloud.Idx → EReal) (h1 : ∀ x, a1 x ≠ ⊤ ∧ a1 x ≠ ⊥) (h2 : ∀ x, a2 x ≠ ⊤ ∧ a2 x ≠ ⊥)
    (b : Fin 16) (i : Fin 4096) :
    IsMinOf (val_main_v17 (F := Ideal) a1 a2 (ix2 b i)) (fun j : Fin 4096 => sqDist a1 a2 b i j) := by
  have hR : S16x4096x4096.Reduces [2] S16x4096 := by decide
  have el : ∀ j : Fin 4096, hR.lift (ix2 b i) j = ix3 b i j := fun j =>
    funext fun a => Fin.ext (by match a with | ⟨0, _⟩ => rfl | ⟨1, _⟩ => rfl | ⟨2, _⟩ => rfl)
  have e : val_main_v17 (F := Ideal) a1 a2 (ix2 b i)
      = (Finset.univ : Finset (Fin 4096)).fold min ⊤ (fun j => sqDist a1 a2 b i j) := by
    unfold val_main_v17
    rw [Host.reduce_eq_fold_single (a := 2) _ _ _ _ hR]
    show (Finset.univ : Finset (Fin 4096)).fold min (Ideal.ofBits .f32 0x7F800000#32)
        (fun j => val_main_v12 (F := Ideal) a1 a2 (hR.lift (ix2 b i) j)) = _
    rw [ofBits_inf_f32]
    have ef : (fun j : Fin 4096 => val_main_v12 (F := Ideal) a1 a2 (hR.lift (ix2 b i) j))
        = fun j => sqDist a1 a2 b i j := funext fun j => by rw [el j, ref_dist a1 a2 h1 h2 b i j]
    exact congrArg (fun f : Fin 4096 → EReal => (Finset.univ : Finset (Fin 4096)).fold min ⊤ f) ef
  rw [e]
  exact isMinOf_fold _

/-- The reference's column minimum at `(b, j)` is the minimum over `i` of the squared distances from the points of the
    first cloud to point `j` of the second: a fold of `min` from the top element over the middle axis. -/
theorem ref_colmin (a1 a2 : Cloud.Idx → EReal) (h1 : ∀ x, a1 x ≠ ⊤ ∧ a1 x ≠ ⊥) (h2 : ∀ x, a2 x ≠ ⊤ ∧ a2 x ≠ ⊥)
    (b : Fin 16) (j : Fin 4096) :
    IsMinOf (val_main_v13 (F := Ideal) a1 a2 (ix2 b j)) (fun i : Fin 4096 => sqDist a1 a2 b i j) := by
  have hR : S16x4096x4096.Reduces [1] S16x4096 := by decide
  have el : ∀ i : Fin 4096, hR.lift (ix2 b j) i = ix3 b i j := fun i =>
    funext fun a => Fin.ext (by match a with | ⟨0, _⟩ => rfl | ⟨1, _⟩ => rfl | ⟨2, _⟩ => rfl)
  have e : val_main_v13 (F := Ideal) a1 a2 (ix2 b j)
      = (Finset.univ : Finset (Fin 4096)).fold min ⊤ (fun i => sqDist a1 a2 b i j) := by
    unfold val_main_v13
    rw [Host.reduce_eq_fold_single (a := 1) _ _ _ _ hR]
    show (Finset.univ : Finset (Fin 4096)).fold min (Ideal.ofBits .f32 0x7F800000#32)
        (fun i => val_main_v12 (F := Ideal) a1 a2 (hR.lift (ix2 b j) i)) = _
    rw [ofBits_inf_f32]
    have ef : (fun i : Fin 4096 => val_main_v12 (F := Ideal) a1 a2 (hR.lift (ix2 b j) i))
        = fun i => sqDist a1 a2 b i j := funext fun i => by rw [el i, ref_dist a1 a2 h1 h2 b i j]
    exact congrArg (fun f : Fin 4096 → EReal => (Finset.univ : Finset (Fin 4096)).fold min ⊤ f) ef
  rw [e]
  exact isMinOf_fold _

end Cert.RefDist

end
-- ==== Proof.Finite.lean ====
/-
  Finiteness of the two point clouds. The precondition says that every coordinate of both clouds has an absolute
  value strictly below the top element of the extended reals. The absolute value of an extended real `x` is
  `max x (-x)`, which is the top element at both infinite points, so each coordinate is neither the top nor the
  bottom element: it is a real number.
-/
import proofs.«109425_j1408749273445_2_alg».proof.Proof.Gen.Pre_finite_inputs
import Idealize.ShloMosaic.Lib.ReduceAll
import Idealize.ShloMosaic.Lib.ValueIdx
import Idealize.ShloMosaic.PureOps.Ideal.Laws

namespace Cert.Finite

open Idealize.ShloMosaic Cert.Pre_finite_inputs

/-- The rank-zero shape has exactly one index. -/
instance : Subsingleton S_.Idx := ⟨fun a b => funext fun d => d.elim0⟩

/-- The word `0x7F800000` denotes the top element. -/
theorem ofBits_inf_f32 : Ideal.ofBits .f32 0x7F800000#32 = ⊤ := by simp [Ideal.ofBits, Ideal.ieee]

/-- An extended real whose absolute value `max x (-x)` lies strictly below the top element is a real number. -/
theorem finite_of_abs_lt_top (x : EReal) (h : Ideal.cmp .olt (max x (-x)) ⊤ = 1#1) : x ≠ ⊤ ∧ x ≠ ⊥ := by
  induction x using EReal.rec with
  | bot => simp [Ideal.cmp] at h
  | top => simp [Ideal.cmp] at h
  | coe r => exact ⟨EReal.coe_ne_top r, EReal.coe_ne_bot r⟩

/-- If the precondition holds, every coordinate of both clouds is a real number. The precondition is the
    conjunction of two "for all indices" statements, one per cloud; each says `|x| < ⊤` at every index. -/
theorem finite_of_pre [Cert.Pre_finite_inputs.Facts] (x0 x1 : FVec Ideal S16x4096x3 .f32)
    (h : Cert.Pre_finite_inputs.fn (F := Ideal) x0 x1 = fun _ => 1#1) :
    (∀ i, x0 i ≠ ⊤ ∧ x0 i ≠ ⊥) ∧ (∀ i, x1 i ≠ ⊤ ∧ x1 i ≠ ⊥) := by
  have h0 := congrFun h ValueIdx.ix0
  dsimp only [Cert.Pre_finite_inputs.fn] at h0
  obtain ⟨e0, e1⟩ := IntOp.andi_eq_one.1 (show IntOp.andi _ _ = 1#1 from h0)
  refine ⟨fun i => ?_, fun i => ?_⟩
  · have hi := Host.reduce_andi_all _ _ _ _ _ e0 i
    refine finite_of_abs_lt_top (x0 i) ?_
    rw [← ofBits_inf_f32]
    exact hi
  · have hi := Host.reduce_andi_all _ _ _ _ _ e1 i
    refine finite_of_abs_lt_top (x1 i) ?_
    rw [← ofBits_inf_f32]
    exact hi

end Cert.Finite
-- ==== Proof.Final.lean ====
/-
  The two idealized programs compute one number.

  Both end with the same arithmetic on two arrays of minima — half the mean over the second cloud of the
  nearest-point distances to the first cloud, plus half the mean over the first cloud of the nearest-point distances
  to the second, averaged over the 16 entries and scaled by 100 — so it suffices that the two arrays agree:
  * ROW MINIMA, entry (b, i): the minimum over the second cloud of the squared distance from point `i`. The kernel
    accumulates it over eight column tiles; the reference reduces one whole row.
  * COLUMN MINIMA, entry (b, j): the minimum over the first cloud of the squared distance to point `j`. The kernel
    takes the minimum over each row tile's 256 points and the host the minimum of the 16 row tiles; the reference
    reduces one whole column. A minimum of minima over a partition is the minimum over the union.
  The squared distances themselves agree because the inputs are finite: the sum of squared coordinate differences is
  the sum of squares plus the sum of squares minus twice the inner product, in the reals.
-/
import proofs.«109425_j1408749273445_2_alg».proof.Defs
import proofs.«109425_j1408749273445_2_alg».proof.Proof.KI.Body
import proofs.«109425_j1408749273445_2_alg».proof.Proof.KVal
import proofs.«109425_j1408749273445_2_alg».proof.Proof.KFin
import proofs.«109425_j1408749273445_2_alg».proof.Proof.KTail
import proofs.«109425_j1408749273445_2_alg».proof.Proof.RefDist
import proofs.«109425_j1408749273445_2_alg».proof.Proof.Finite
import proofs.«109425_j1408749273445_2_alg».proof.Proof.Gen.ReferenceIdeal.Run
import proofs.«109425_j1408749273445_2_alg».proof.Proof.Gen.ReferenceIdeal.Read
import proofs.«109425_j1408749273445_2_alg».proof.Proof.Gen.Pre_finite_inputs

set_option maxRecDepth 16384

noncomputable section

namespace Cert.Final

open Cert.KernelIdeal Cert.KernelIdeal.Gen Cert.KernelIdeal.Body Cert.KernelIdeal.Val Cert.Dist
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The kernel program's result on core `c`: the common final arithmetic on the row-minimum array the region leaves
    and on the minimum, over the 16 row tiles, of the column-minimum array it leaves. -/
def result (c : Dev nD) : Buf (Elt Ideal) ((c.tc : Thread nD τ).loc main_v17) :=
  Tail.tail ((dats m 0 c).arrAt 2 cfg0.N)
    (Host.reduce (FloatOps.minimumf (F := Ideal) (φ := .f32)) ((dats m 0 c).arrAt 3 cfg0.N)
      (constant (F := Ideal) S_ .f32 0x7F800000#32) reducesTo_S16x16x4096_S16x4096_d0 h_S_)

/-- The kernel program runs to the end, leaves its result at `result` and its two arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v17 (Pipeline.mem_restRefs_of main_v17 (by decide) (by decide))).trans (Tail.tail_eq m (dats m) c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

variable (c : Dev nD) (h1 : ∀ x, cloud1 m c x ≠ ⊤ ∧ cloud1 m c x ≠ ⊥) (h2 : ∀ x, cloud2 m c x ≠ ⊤ ∧ cloud2 m c x ≠ ⊥)

include h1 h2 in
/-- The reference's row minima are the kernel's: two minima of one family. -/
theorem rows_eq (b : Fin 16) (i : Fin 4096) :
    Cert.ReferenceIdeal.Read.val_main_v17 (F := Ideal) (cloud1 m c) (cloud2 m c) (ix2 b i)
      = (dats m 0 c).arrAt 2 cfg0.N (ix2 b i) :=
  (Cert.RefDist.ref_rowmin (cloud1 m c) (cloud2 m c) h1 h2 b i).unique (final_row m c (ix2 b i))

/-- Every point of the first cloud is point `r` of some row tile `s`. -/
theorem exists_rowPt (i : Fin 4096) : ∃ (s : Fin 16) (r : Fin 256), rowPt s r = i :=
  ⟨⟨i.val / 256, by have := i.isLt; omega⟩, ⟨i.val % 256, Nat.mod_lt _ (by decide)⟩,
    Fin.ext (by show 256 * (i.val / 256) + i.val % 256 = i.val; omega)⟩

include h1 h2 in
/-- The reference's column minima are the minima over the row tiles of the kernel's per-tile column minima: the row
    tiles partition the first cloud. -/
theorem cols_eq (b : Fin 16) (j : Fin 4096) :
    Cert.ReferenceIdeal.Read.val_main_v13 (F := Ideal) (cloud1 m c) (cloud2 m c) (ix2 b j)
      = Host.reduce (FloatOps.minimumf (F := Ideal) (φ := .f32)) ((dats m 0 c).arrAt 3 cfg0.N)
          (constant (F := Ideal) S_ .f32 0x7F800000#32) reducesTo_S16x16x4096_S16x4096_d0 h_S_ (ix2 b j) :=
  (Cert.RefDist.ref_colmin (cloud1 m c) (cloud2 m c) h1 h2 b j).unique fun c' =>
    (Tail.colmin_isMin ((dats m 0 c).arrAt 3 cfg0.N) b j c').trans
      ⟨fun h i => by
          obtain ⟨s, r, e⟩ := exists_rowPt i
          have hi : c' ≤ sqDist (cloud1 m c) (cloud2 m c) b (rowPt s r) j := (final_col m c (ix3 s b j) c').mp (h s) r
          rwa [e] at hi,
       fun h s => (final_col m c (ix3 s b j) c').mpr fun r => h _⟩

end Cert.Final

namespace Cert.Final

open Idealize.ShloMosaic Idealize.ShloMosaic.TcCoe Idealize.ShloMosaic.ValueIdx Idealize.SL.Sem

/-- THE VALUE CLAIM: run from memories agreeing on the two clouds, finite by the precondition, the two idealized
    programs end with equal results and unchanged arguments. -/
theorem algebraic : Cert.algebraic_KernelIdeal_ReferenceIdeal := by
  intro m ρ m' ρ' hpre hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v28_eq, Cert.KernelIdeal.Tail.ref_tail]
  obtain ⟨h1, h2⟩ := Cert.Finite.finite_of_pre _ _ (hpre c)
  unfold result
  exact congrArg₂ Cert.KernelIdeal.Tail.tail
    (funext fun i => by rw [eq_ix2 i]; exact rows_eq m c h1 h2 _ _)
    (funext fun i => by rw [eq_ix2 i]; exact cols_eq m c h1 h2 _ _)

end Cert.Final

end
-- ==== Proof.lean ====
/-
  A fused nearest-point-distance kernel against its plain reference, over the extended reals.

  Two clouds of 4096 points of R^3 per batch entry (16 entries). For entry b let D[i, j] be the squared distance
  from point i of the first cloud to point j of the second. Both programs return
      100 · mean_b ( ½ · mean_j min_i D[i, j] + ½ · mean_i min_j D[i, j] ).
  The kernel forms D tile by tile (256 × 512) as the sum of the three squared coordinate differences, keeps a running
  row minimum over the eight column tiles of a row tile and writes a column minimum per tile, the host taking the
  minimum over the sixteen row tiles; the reference expands D as |x|² + |y|² − 2⟨x, y⟩ and reduces whole rows and
  columns. Over finite inputs the two forms of D agree in the reals, and a minimum of minima over a partition is the
  minimum over the union (Proof/Final.lean, Proof/KVal.lean, Proof/RefDist.lean).

  The three frames: each kernel program's frame is proved from the body's run at a first and at a later column
  tile (Proof/K/Body.lean at the word level, Proof/KI/Body.lean at the ideal instance); the reference has no kernel,
  and its frame is its generated run with the result dropped. The idealization rewrote nothing, so there is nothing
  to preserve.
-/
import proofs.«109425_j1408749273445_2_alg».proof.Defs
import proofs.«109425_j1408749273445_2_alg».proof.Proof.Gen.Kernel
import proofs.«109425_j1408749273445_2_alg».proof.Proof.Gen.KernelIdeal
import proofs.«109425_j1408749273445_2_alg».proof.Proof.Gen.ReferenceIdeal
import proofs.«109425_j1408749273445_2_alg».proof.Proof.Gen.ReferenceIdeal.Run
import proofs.«109425_j1408749273445_2_alg».proof.Proof.Gen.ReferenceIdeal.Read
import proofs.«109425_j1408749273445_2_alg».proof.Proof.Gen.Pre_finite_inputs
import proofs.«109425_j1408749273445_2_alg».proof.Proof.K.Body
import proofs.«109425_j1408749273445_2_alg».proof.Proof.KI.Body
import proofs.«109425_j1408749273445_2_alg».proof.Proof.Final
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Body.frame m ρ

/-- So does the idealized kernel program. -/
theorem frame_ki : Cert.frame_KernelIdeal := fun m ρ _ => Cert.KernelIdeal.Body.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Final.algebraic⟩

end Cert.Proof

end
